-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v94)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v95)) (v3 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v95) = v2 c
          ∧ r.2.mem ((c.tc : Thread Cert.KernelIdeal.nD Cert.KernelIdeal.τ).loc Cert.KernelIdeal.main_arg2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1200000 : Shape := ⟨2, ![2, 1200000]⟩
abbrev S100000x64 : Shape := ⟨2, ![100000, 64]⟩
abbrev S50000x64 : Shape := ⟨2, ![50000, 64]⟩
abbrev S3x64x64 : Shape := ⟨3, ![3, 64, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  main_v18

def fn {F : FTy → Type} [FloatOps F] (main_arg0 : IVec S2x1200000 32) (main_arg1 : FVec F S100000x64 .f32) (main_arg2 : FVec F S50000x64 .f32) (main_arg3 : FVec F S3x64x64 .f32) (main_arg4 : FVec F S3x64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3x64x64 .f32 := Host.absf main_arg3
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_v13 main_v16
-- ==== Kernel.lean ====
abbrev S2x1200000 : Shape := ⟨2, ![2, 1200000]⟩
abbrev S100000x64 : Shape := ⟨2, ![100000, 64]⟩
abbrev S50000x64 : Shape := ⟨2, ![50000, 64]⟩
abbrev S3x64x64 : Shape := ⟨3, ![3, 64, 64]⟩
abbrev S3x64 : Shape := ⟨2, ![3, 64]⟩
abbrev S150000x64 : Shape := ⟨2, ![150000, 64]⟩
abbrev S150000 : Shape := ⟨1, ![150000]⟩
abbrev S1x1200000 : Shape := ⟨2, ![1, 1200000]⟩
abbrev S1200000 : Shape := ⟨1, ![1200000]⟩
abbrev S1350000 : Shape := ⟨1, ![1350000]⟩
abbrev S_ : Shape := ⟨0, ![]⟩
abbrev S1350000x1 : Shape := ⟨2, ![1350000, 1]⟩
abbrev S1x64x64 : Shape := ⟨3, ![1, 64, 64]⟩
abbrev S64x64 : Shape := ⟨2, ![64, 64]⟩
abbrev S6000x64 : Shape := ⟨2, ![6000, 64]⟩
abbrev S1350000x64 : Shape := ⟨2, ![1350000, 64]⟩
abbrev S1x64 : Shape := ⟨2, ![1, 64]⟩
abbrev S64 : Shape := ⟨1, ![64]⟩

abbrev nBuf : Space → Nat
  | .hbm => 120
  | .vmem => 15
  | .smem => 0
  | _ => 0

abbrev bufTy : (tb : Table) → Fin (tcTables nBuf tb) → BufTy
  | .hbm, ⟨0, _⟩ => ⟨S2x1200000, .i32⟩
  | .hbm, ⟨1, _⟩ => ⟨S100000x64, .f32⟩
  | .hbm, ⟨2, _⟩ => ⟨S50000x64, .f32⟩
  | .hbm, ⟨3, _⟩ => ⟨S3x64x64, .f32⟩
  | .hbm, ⟨4, _⟩ => ⟨S3x64, .f32⟩
  | .hbm, ⟨5, _⟩ => ⟨S150000x64, .f32⟩
  | .hbm, ⟨6, _⟩ => ⟨S150000, .i32⟩
  | .hbm, ⟨7, _⟩ => ⟨S1x1200000, .i32⟩
  | .hbm, ⟨8, _⟩ => ⟨S1200000, .i32⟩
  | .hbm, ⟨9, _⟩ => ⟨S1350000, .i32⟩
  | .hbm, ⟨10, _⟩ => ⟨S1x1200000, .i32⟩
  | .hbm, ⟨11, _⟩ => ⟨S1200000, .i32⟩
  | .hbm, ⟨12, _⟩ => ⟨S1350000, .i32⟩
  | .hbm, ⟨13, _⟩ => ⟨S_, .f32⟩
  | .hbm, ⟨14, _⟩ => ⟨S1350000, .f32⟩
  | .hbm, ⟨15, _⟩ => ⟨S_, .f32⟩
  | .hbm, ⟨16, _⟩ => ⟨S150000, .f32⟩
  | .hbm, ⟨17, _⟩ => ⟨S1350000x1, .i32⟩
  | .hbm, ⟨18, _⟩ => ⟨S150000, .f32⟩
  | .hbm, ⟨19, _⟩ => ⟨S_, .f32⟩
  | .hbm, ⟨20, _⟩ => ⟨S150000, .f32⟩
  | .hbm, ⟨21, _⟩ => ⟨S150000, .i1⟩
  | .hbm, ⟨22, _⟩ => ⟨S150000, .f32⟩
  | .hbm, ⟨23, _⟩ => ⟨S_, .f32⟩
  | .hbm, ⟨24, _⟩ => ⟨S_, .f32⟩
  | .hbm, ⟨25, _⟩ => ⟨S150000, .f32⟩
  | .hbm, ⟨26, _⟩ => ⟨S150000, .f32⟩
  | .hbm, ⟨27, _⟩ => ⟨S_, .i32⟩
  | .hbm, ⟨28, _⟩ => ⟨S1350000, .i32⟩
  | .hbm, ⟨29, _⟩ => ⟨S1350000, .i1⟩
  | .hbm, ⟨30, _⟩ => ⟨S_, .i32⟩
  | .hbm, ⟨31, _⟩ => ⟨S1350000, .i32⟩
  | .hbm, ⟨32, _⟩ => ⟨S1350000, .i32⟩
  | .hbm, ⟨33, _⟩ => ⟨S1350000, .i32⟩
  | .hbm, ⟨34, _⟩ => ⟨S1350000x1, .i32⟩
  | .hbm, ⟨35, _⟩ => ⟨S1350000, .f32⟩
  | .hbm, ⟨36, _⟩ => ⟨S_, .i32⟩
  | .hbm, ⟨37, _⟩ => ⟨S1350000, .i32⟩
  | .hbm, ⟨38, _⟩ => ⟨S1350000, .i1⟩
  | .hbm, ⟨39, _⟩ => ⟨S_, .i32⟩
  | .hbm, ⟨40, _⟩ => ⟨S1350000, .i32⟩
  | .hbm, ⟨41, _⟩ => ⟨S1350000, .i32⟩
  | .hbm, ⟨42, _⟩ => ⟨S1350000, .i32⟩
  | .hbm, ⟨43, _⟩ => ⟨S1350000x1, .i32⟩
  | .hbm, ⟨44, _⟩ => ⟨S1350000, .f32⟩
  | .hbm, ⟨45, _⟩ => ⟨S1350000, .f32⟩
  | .hbm, ⟨46, _⟩ => ⟨S1x64x64, .f32⟩
  | .hbm, ⟨47, _⟩ => ⟨S64x64, .f32⟩
  | .hbm, ⟨48, _⟩ => ⟨S150000x64, .f32⟩
  | .hbm, ⟨49, _⟩ => ⟨S_, .i32⟩
  | .hbm, ⟨50, _⟩ => ⟨S1350000, .i32⟩
  | .hbm, ⟨51, _⟩ => ⟨S1350000, .i1⟩
  | .hbm, ⟨52, _⟩ => ⟨S_, .i32⟩
  | .hbm, ⟨53, _⟩ => ⟨S1350000, .i32⟩
  | .hbm, ⟨54, _⟩ => ⟨S1350000, .i32⟩
  | .hbm, ⟨55, _⟩ => ⟨S1350000, .i32⟩
  | .hbm, ⟨56, _⟩ => ⟨S1350000x1, .i32⟩
  | .hbm, ⟨57, _⟩ => ⟨S1350000x64, .f32⟩
  | .hbm, ⟨58, _⟩ => ⟨S1350000x1, .f32⟩
  | .hbm, ⟨59, _⟩ => ⟨S1350000x64, .f32⟩
  | .hbm, ⟨60, _⟩ => ⟨S1350000x64, .f32⟩
  | .hbm, ⟨61, _⟩ => ⟨S_, .f32⟩
  | .hbm, ⟨62, _⟩ => ⟨S150000x64, .f32⟩
  | .hbm, ⟨63, _⟩ => ⟨S1350000x1, .i32⟩
  | .hbm, ⟨64, _⟩ => ⟨S150000x64, .f32⟩
  | .hbm, ⟨65, _⟩ => ⟨S1x64, .f32⟩
  | .hbm, ⟨66, _⟩ => ⟨S64, .f32⟩
  | .hbm, ⟨67, _⟩ => ⟨S1x64, .f32⟩
  | .hbm, ⟨68, _⟩ => ⟨S150000x64, .f32⟩
  | .hbm, ⟨69, _⟩ => ⟨S150000x64, .f32⟩
  | .hbm, ⟨70, _⟩ => ⟨S1x64x64, .f32⟩
  | .hbm, ⟨71, _⟩ => ⟨S64x64, .f32⟩
  | .hbm, ⟨72, _⟩ => ⟨S150000x64, .f32⟩
  | .hbm, ⟨73, _⟩ => ⟨S_, .i32⟩
  | .hbm, ⟨74, _⟩ => ⟨S1350000, .i32⟩
  | .hbm, ⟨75, _⟩ => ⟨S1350000, .i1⟩
  | .hbm, ⟨76, _⟩ => ⟨S_, .i32⟩
  | .hbm, ⟨77, _⟩ => ⟨S1350000, .i32⟩
  | .hbm, ⟨78, _⟩ => ⟨S1350000, .i32⟩
  | .hbm, ⟨79, _⟩ => ⟨S1350000, .i32⟩
  | .hbm, ⟨80, _⟩ => ⟨S1350000x1, .i32⟩
  | .hbm, ⟨81, _⟩ => ⟨S1350000x64, .f32⟩
  | .hbm, ⟨82, _⟩ => ⟨S1350000x1, .f32⟩
  | .hbm, ⟨83, _⟩ => ⟨S1350000x64, .f32⟩
  | .hbm, ⟨84, _⟩ => ⟨S1350000x64, .f32⟩
  | .hbm, ⟨85, _⟩ => ⟨S_, .f32⟩
  | .hbm, ⟨86, _⟩ => ⟨S150000x64, .f32⟩
  | .hbm, ⟨87, _⟩ => ⟨S1350000x1, .i32⟩
  | .hbm, ⟨88, _⟩ => ⟨S150000x64, .f32⟩
  | .hbm, ⟨89, _⟩ => ⟨S1x64, .f32⟩
  | .hbm, ⟨90, _⟩ => ⟨S64, .f32⟩
  | .hbm, ⟨91, _⟩ => ⟨S1x64, .f32⟩
  | .hbm, ⟨92, _⟩ => ⟨S150000x64, .f32⟩
  | .hbm, ⟨93, _⟩ => ⟨S150000x64, .f32⟩
  | .hbm, ⟨94, _⟩ => ⟨S1x64x64, .f32⟩
  | .hbm, ⟨95, _⟩ => ⟨S64x64, .f32⟩
  | .hbm, ⟨96, _⟩ => ⟨S150000x64, .f32⟩
  | .hbm, ⟨97, _⟩ => ⟨S_, .i32⟩
  | .hbm, ⟨98, _⟩ => ⟨S1350000, .i32⟩
  | .hbm, ⟨99, _⟩ => ⟨S1350000, .i1⟩
  | .hbm, ⟨100, _⟩ => ⟨S_, .i32⟩
  | .hbm, ⟨101, _⟩ => ⟨S1350000, .i32⟩
  | .hbm, ⟨102, _⟩ => ⟨S1350000, .i32⟩
  | .hbm, ⟨103, _⟩ => ⟨S1350000, .i32⟩
  | .hbm, ⟨104, _⟩ => ⟨S1350000x1, .i32⟩
  | .hbm, ⟨105, _⟩ => ⟨S1350000x64, .f32⟩
  | .hbm, ⟨106, _⟩ => ⟨S1350000x1, .f32⟩
  | .hbm, ⟨107, _⟩ => ⟨S1350000x64, .f32⟩
  | .hbm, ⟨108, _⟩ => ⟨S1350000x64, .f32⟩
  | .hbm, ⟨109, _⟩ => ⟨S_, .f32⟩
  | .hbm, ⟨110, _⟩ => ⟨S150000x64, .f32⟩
  | .hbm, ⟨111, _⟩ => ⟨S1350000x1, .i32⟩
  | .hbm, ⟨112, _⟩ => ⟨S150000x64, .f32⟩
  | .hbm, ⟨113, _⟩ => ⟨S1x64, .f32⟩
  | .hbm, ⟨114, _⟩ => ⟨S64, .f32⟩
  | .hbm, ⟨115, _⟩ => ⟨S1x64, .f32⟩
  | .hbm, ⟨116, _⟩ => ⟨S150000x64, .f32⟩
  | .hbm, ⟨117, _⟩ => ⟨S150000x64, .f32⟩
  | .hbm, ⟨118, _⟩ => ⟨S100000x64, .f32⟩
  | .hbm, ⟨119, _⟩ => ⟨S50000x64, .f32⟩
  | .local _ .vmem, ⟨0, _⟩ => ⟨S6000x64, .f32⟩
  | .local _ .vmem, ⟨1, _⟩ => ⟨S6000x64, .f32⟩
  | .local _ .vmem, ⟨2, _⟩ => ⟨S64x64, .f32⟩
  | .local _ .vmem, ⟨3, _⟩ => ⟨S6000x64, .f32⟩
  | .local _ .vmem, ⟨4, _⟩ => ⟨S6000x64, .f32⟩
  | .local _ .vmem, ⟨5, _⟩ => ⟨S6000x64, .f32⟩
  | .local _ .vmem, ⟨6, _⟩ => ⟨S6000x64, .f32⟩
  | .local _ .vmem, ⟨7, _⟩ => ⟨S64x64, .f32⟩
  | .local _ .vmem, ⟨8, _⟩ => ⟨S6000x64, .f32⟩
  | .local _ .vmem, ⟨9, _⟩ => ⟨S6000x64, .f32⟩
  | .local _ .vmem, ⟨10, _⟩ => ⟨S6000x64, .f32⟩
  | .local _ .vmem, ⟨11, _⟩ => ⟨S6000x64, .f32⟩
  | .local _ .vmem, ⟨12, _⟩ => ⟨S64x64, .f32⟩
  | .local _ .vmem, ⟨13, _⟩ => ⟨S6000x64, .f32⟩
  | .local _ .vmem, ⟨14, _⟩ => ⟨S6000x64, .f32⟩
  | _, _ => ⟨S2x1200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_9 : Ref sig .tc := ⟨.hbm, 73, rfl⟩
abbrev main_v55 : Ref sig .tc := ⟨.hbm, 74, rfl⟩
abbrev main_v56 : Ref sig .tc := ⟨.hbm, 75, rfl⟩
abbrev main_c_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_12 : Ref sig .tc := ⟨.hbm, 97, rfl⟩
abbrev main_v76 : Ref sig .tc := ⟨.hbm, 98, rfl⟩
abbrev main_v77 : Ref sig .tc := ⟨.hbm, 99, rfl⟩
abbrev main_c_13 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_14 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S6000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S100000x64_S50000x64_S150000x64_d0 : Shape.Concatenates [S100000x64, S50000x64] S150000x64 0
  slices_S2x1200000_S1x1200000_0_0 : S2x1200000.Slices ![0, 0] S1x1200000
  shapeCasts_S1x1200000_S1200000 : S1x1200000.ShapeCasts S1200000
  concatenates_S1200000_S150000_S1350000_d0 : Shape.Concatenates [S1200000, S150000] S1350000 0
  slices_S2x1200000_S1x1200000_1_0 : S2x1200000.Slices ![1, 0] S1x1200000
  bcast_S_S1350000 : S_.BroadcastsInDim S1350000 (![] : Fin 0 → Fin S1350000.rank)
  bcast_S_S150000 : S_.BroadcastsInDim S150000 (![] : Fin 0 → Fin S150000.rank)
  bcast_S1350000_S1350000x1_0 : S1350000.BroadcastsInDim S1350000x1 (![0] : Fin 1 → Fin S1350000x1.rank)
  slices_S3x64x64_S1x64x64_0_0_0 : S3x64x64.Slices ![0, 0, 0] S1x64x64
  shapeCasts_S1x64x64_S64x64 : S1x64x64.ShapeCasts S64x64
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1350000x1_S1350000x64_0_1 : S1350000x1.BroadcastsInDim S1350000x64 (![0, 1] : Fin 2 → Fin S1350000x64.rank)
  bcast_S_S150000x64 : S_.BroadcastsInDim S150000x64 (![] : Fin 0 → Fin S150000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  slices_S150000x64_S100000x64_0_0 : S150000x64.Slices ![0, 0] S100000x64
  slices_S150000x64_S50000x64_100000_0 : S150000x64.Slices ![100000, 0] S50000x64
  scatter_S150000_S1350000x1_S1350000_n_0_0_1_wf : ScatterDims.WF S150000 S1350000x1 S1350000 [] [0] [0] 1
  gather_S150000_S1350000x1_S1350000_n_0_n_n_0_1_1_wf : GatherDims.WF S150000 S1350000x1 S1350000 [] [0] [] [0] [] 1 ![1]
  dot_S6000x64_S64x64_S6000x64_1_0_0_1_n_n_wf : DotDims.WF S6000x64 S64x64 S6000x64 [1] [0] [0] [1] [] []
  gather_S150000x64_S1350000x1_S1350000x64_1_0_n_n_0_1_164_wf : GatherDims.WF S150000x64 S1350000x1 S1350000x64 [1] [0] [] [0] [] 1 ![1, 64]
  scatter_S150000x64_S1350000x1_S1350000x64_1_0_0_1_wf : ScatterDims.WF S150000x64 S1350000x1 S1350000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x64.size a ≤ S150000x64.size a
  hwx0_2 : ∀ i : grid0.Coords, EltTy.bits .f32 = 32 ∨ (Rect.block (s := S150000x64) S6000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S150000x64.size a
  hwx1_0 : ∀ i : grid1.Coords, EltTy.bits .f32 = 32 ∨ (Rect.block (s := S150000x64) S6000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x64.size a ≤ S150000x64.size a
  hwx1_2 : ∀ i : grid1.Coords, EltTy.bits .f32 = 32 ∨ (Rect.block (s := S150000x64) S6000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S150000x64.size a
  hwx2_0 : ∀ i : grid2.Coords, EltTy.bits .f32 = 32 ∨ (Rect.block (s := S150000x64) S6000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6000x64.size a ≤ S150000x64.size a
  hwx2_2 : ∀ i : grid2.Coords, EltTy.bits .f32 = 32 ∨ (Rect.block (s := S150000x64) S6000x64.size (cc2_transform_2 i) (hinb2_2 i)).WholeWords (EltTy.packing .f32)

variable [Facts₀]

def scatter_S150000_S1350000x1_S1350000_n_0_0_1 : ScatterDims S150000 S1350000x1 S1350000 where
  updateWindowDims := []
  insertedWindowDims := [0]
  scatterDimsToOperandDims := [0]
  indexVectorDim := 1
  wf := scatter_S150000_S1350000x1_S1350000_n_0_0_1_wf
def gather_S150000_S1350000x1_S1350000_n_0_n_n_0_1_1 : GatherDims S150000 S1350000x1 S1350000 where
  offsetDims := []
  collapsedSliceDims := [0]
  operandBatchingDims := []
  startIndicesBatchingDims := []
  startIndexMap := [0]
  indexVectorDim := 1
  sliceSizes := ![1]
  wf := gather_S150000_S1350000x1_S1350000_n_0_n_n_0_1_1_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def gather_S150000x64_S1350000x1_S1350000x64_1_0_n_n_0_1_164 : GatherDims S150000x64 S1350000x1 S1350000x64 where
  offsetDims := [1]
  collapsedSliceDims := [0]
  operandBatchingDims := []
  startIndicesBatchingDims := []
  startIndexMap := [0]
  indexVectorDim := 1
  sliceSizes := ![1, 64]
  wf := gather_S150000x64_S1350000x1_S1350000x64_1_0_n_n_0_1_164_wf
def scatter_S150000x64_S1350000x1_S1350000x64_1_0_0_1 : ScatterDims S150000x64 S1350000x1 S1350000x64 where
  updateWindowDims := [1]
  insertedWindowDims := [0]
  scatterDimsToOperandDims := [0]
  indexVectorDim := 1
  wf := scatter_S150000x64_S1350000x1_S1350000x64_1_0_0_1_wf

abbrev win0_0 : Pipeline.Window sig grid0 :=
  Pipeline.Window.ofSpec (Memref.whole main_v0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S6000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S6000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v72) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S6000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x1200000 : Shape := ⟨2, ![2, 1200000]⟩
abbrev S100000x64 : Shape := ⟨2, ![100000, 64]⟩
abbrev S50000x64 : Shape := ⟨2, ![50000, 64]⟩
abbrev S3x64x64 : Shape := ⟨3, ![3, 64, 64]⟩
abbrev S3x64 : Shape := ⟨2, ![3, 64]⟩
abbrev S150000x64 : Shape := ⟨2, ![150000, 64]⟩
abbrev S150000 : Shape := ⟨1, ![150000]⟩
abbrev S1x1200000 : Shape := ⟨2, ![1, 1200000]⟩
abbrev S1200000 : Shape := ⟨1, ![1200000]⟩
abbrev S1350000 : Shape := ⟨1, ![1350000]⟩
abbrev S_ : Shape := ⟨0, ![]⟩
abbrev S1350000x1 : Shape := ⟨2, ![1350000, 1]⟩
abbrev S1x64x64 : Shape := ⟨3, ![1, 64, 64]⟩
abbrev S64x64 : Shape := ⟨2, ![64, 64]⟩
abbrev S1350000x64 : Shape := ⟨2, ![1350000, 64]⟩
abbrev S1x64 : Shape := ⟨2, ![1, 64]⟩
abbrev S64 : Shape := ⟨1, ![64]⟩

abbrev nBuf : Space → Nat
  | .hbm => 120
  | .vmem => 0
  | .smem => 0
  | _ => 0

abbrev bufTy : (tb : Table) → Fin (tcTables nBuf tb) → BufTy
  | .hbm, ⟨0, _⟩ => ⟨S2x1200000, .i32⟩
  | .hbm, ⟨1, _⟩ => ⟨S100000x64, .f32⟩
  | .hbm, ⟨2, _⟩ => ⟨S50000x64, .f32⟩
  | .hbm, ⟨3, _⟩ => ⟨S3x64x64, .f32⟩
  | .hbm, ⟨4, _⟩ => ⟨S3x64, .f32⟩
  | .hbm, ⟨5, _⟩ => ⟨S150000x64, .f32⟩
  | .hbm, ⟨6, _⟩ => ⟨S150000, .i32⟩
  | .hbm, ⟨7, _⟩ => ⟨S1x1200000, .i32⟩
  | .hbm, ⟨8, _⟩ => ⟨S1200000, .i32⟩
  | .hbm, ⟨9, _⟩ => ⟨S1350000, .i32⟩
  | .hbm, ⟨10, _⟩ => ⟨S1x1200000, .i32⟩
  | .hbm, ⟨11, _⟩ => ⟨S1200000, .i32⟩
  | .hbm, ⟨12, _⟩ => ⟨S1350000, .i32⟩
  | .hbm, ⟨13, _⟩ => ⟨S_, .f32⟩
  | .hbm, ⟨14, _⟩ => ⟨S1350000, .f32⟩
  | .hbm, ⟨15, _⟩ => ⟨S_, .f32⟩
  | .hbm, ⟨16, _⟩ => ⟨S150000, .f32⟩
  | .hbm, ⟨17, _⟩ => ⟨S1350000x1, .i32⟩
  | .hbm, ⟨18, _⟩ => ⟨S150000, .f32⟩
  | .hbm, ⟨19, _⟩ => ⟨S_, .f32⟩
  | .hbm, ⟨20, _⟩ => ⟨S150000, .f32⟩
  | .hbm, ⟨21, _⟩ => ⟨S150000, .i1⟩
  | .hbm, ⟨22, _⟩ => ⟨S150000, .f32⟩
  | .hbm, ⟨23, _⟩ => ⟨S_, .f32⟩
  | .hbm, ⟨24, _⟩ => ⟨S_, .f32⟩
  | .hbm, ⟨25, _⟩ => ⟨S150000, .f32⟩
  | .hbm, ⟨26, _⟩ => ⟨S150000, .f32⟩
  | .hbm, ⟨27, _⟩ => ⟨S_, .i32⟩
  | .hbm, ⟨28, _⟩ => ⟨S1350000, .i32⟩
  | .hbm, ⟨29, _⟩ => ⟨S1350000, .i1⟩
  | .hbm, ⟨30, _⟩ => ⟨S_, .i32⟩
  | .hbm, ⟨31, _⟩ => ⟨S1350000, .i32⟩
  | .hbm, ⟨32, _⟩ => ⟨S1350000, .i32⟩
  | .hbm, ⟨33, _⟩ => ⟨S1350000, .i32⟩
  | .hbm, ⟨34, _⟩ => ⟨S1350000x1, .i32⟩
  | .hbm, ⟨35, _⟩ => ⟨S1350000, .f32⟩
  | .hbm, ⟨36, _⟩ => ⟨S_, .i32⟩
  | .hbm, ⟨37, _⟩ => ⟨S1350000, .i32⟩
  | .hbm, ⟨38, _⟩ => ⟨S1350000, .i1⟩
  | .hbm, ⟨39, _⟩ => ⟨S_, .i32⟩
  | .hbm, ⟨40, _⟩ => ⟨S1350000, .i32⟩
  | .hbm, ⟨41, _⟩ => ⟨S1350000, .i32⟩
  | .hbm, ⟨42, _⟩ => ⟨S1350000, .i32⟩
  | .hbm, ⟨43, _⟩ => ⟨S1350000x1, .i32⟩
  | .hbm, ⟨44, _⟩ => ⟨S1350000, .f32⟩
  | .hbm, ⟨45, _⟩ => ⟨S1350000, .f32⟩
  | .hbm, ⟨46, _⟩ => ⟨S1x64x64, .f32⟩
  | .hbm, ⟨47, _⟩ => ⟨S64x64, .f32⟩
  | .hbm, ⟨48, _⟩ => ⟨S150000x64, .f32⟩
  | .hbm, ⟨49, _⟩ => ⟨S_, .i32⟩
  | .hbm, ⟨50, _⟩ => ⟨S1350000, .i32⟩
  | .hbm, ⟨51, _⟩ => ⟨S1350000, .i1⟩
  | .hbm, ⟨52, _⟩ => ⟨S_, .i32⟩
  | .hbm, ⟨53, _⟩ => ⟨S1350000, .i32⟩
  | .hbm, ⟨54, _⟩ => ⟨S1350000, .i32⟩
  | .hbm, ⟨55, _⟩ => ⟨S1350000, .i32⟩
  | .hbm, ⟨56, _⟩ => ⟨S1350000x1, .i32⟩
  | .hbm, ⟨57, _⟩ => ⟨S1350000x64, .f32⟩
  | .hbm, ⟨58, _⟩ => ⟨S1350000x1, .f32⟩
  | .hbm, ⟨59, _⟩ => ⟨S1350000x64, .f32⟩
  | .hbm, ⟨60, _⟩ => ⟨S1350000x64, .f32⟩
  | .hbm, ⟨61, _⟩ => ⟨S_, .f32⟩
  | .hbm, ⟨62, _⟩ => ⟨S150000x64, .f32⟩
  | .hbm, ⟨63, _⟩ => ⟨S1350000x1, .i32⟩
  | .hbm, ⟨64, _⟩ => ⟨S150000x64, .f32⟩
  | .hbm, ⟨65, _⟩ => ⟨S1x64, .f32⟩
  | .hbm, ⟨66, _⟩ => ⟨S64, .f32⟩
  | .hbm, ⟨67, _⟩ => ⟨S1x64, .f32⟩
  | .hbm, ⟨68, _⟩ => ⟨S150000x64, .f32⟩
  | .hbm, ⟨69, _⟩ => ⟨S150000x64, .f32⟩
  | .hbm, ⟨70, _⟩ => ⟨S1x64x64, .f32⟩
  | .hbm, ⟨71, _⟩ => ⟨S64x64, .f32⟩
  | .hbm, ⟨72, _⟩ => ⟨S150000x64, .f32⟩
  | .hbm, ⟨73, _⟩ => ⟨S_, .i32⟩
  | .hbm, ⟨74, _⟩ => ⟨S1350000, .i32⟩
  | .hbm, ⟨75, _⟩ => ⟨S1350000, .i1⟩
  | .hbm, ⟨76, _⟩ => ⟨S_, .i32⟩
  | .hbm, ⟨77, _⟩ => ⟨S1350000, .i32⟩
  | .hbm, ⟨78, _⟩ => ⟨S1350000, .i32⟩
  | .hbm, ⟨79, _⟩ => ⟨S1350000, .i32⟩
  | .hbm, ⟨80, _⟩ => ⟨S1350000x1, .i32⟩
  | .hbm, ⟨81, _⟩ => ⟨S1350000x64, .f32⟩
  | .hbm, ⟨82, _⟩ => ⟨S1350000x1, .f32⟩
  | .hbm, ⟨83, _⟩ => ⟨S1350000x64, .f32⟩
  | .hbm, ⟨84, _⟩ => ⟨S1350000x64, .f32⟩
  | .hbm, ⟨85, _⟩ => ⟨S_, .f32⟩
  | .hbm, ⟨86, _⟩ => ⟨S150000x64, .f32⟩
  | .hbm, ⟨87, _⟩ => ⟨S1350000x1, .i32⟩
  | .hbm, ⟨88, _⟩ => ⟨S150000x64, .f32⟩
  | .hbm, ⟨89, _⟩ => ⟨S1x64, .f32⟩
  | .hbm, ⟨90, _⟩ => ⟨S64, .f32⟩
  | .hbm, ⟨91, _⟩ => ⟨S1x64, .f32⟩
  | .hbm, ⟨92, _⟩ => ⟨S150000x64, .f32⟩
  | .hbm, ⟨93, _⟩ => ⟨S150000x64, .f32⟩
  | .hbm, ⟨94, _⟩ => ⟨S1x64x64, .f32⟩
  | .hbm, ⟨95, _⟩ => ⟨S64x64, .f32⟩
  | .hbm, ⟨96, _⟩ => ⟨S150000x64, .f32⟩
  | .hbm, ⟨97, _⟩ => ⟨S_, .i32⟩
  | .hbm, ⟨98, _⟩ => ⟨S1350000, .i32⟩
  | .hbm, ⟨99, _⟩ => ⟨S1350000, .i1⟩
  | .hbm, ⟨100, _⟩ => ⟨S_, .i32⟩
  | .hbm, ⟨101, _⟩ => ⟨S1350000, .i32⟩
  | .hbm, ⟨102, _⟩ => ⟨S1350000, .i32⟩
  | .hbm, ⟨103, _⟩ => ⟨S1350000, .i32⟩
  | .hbm, ⟨104, _⟩ => ⟨S1350000x1, .i32⟩
  | .hbm, ⟨105, _⟩ => ⟨S1350000x64, .f32⟩
  | .hbm, ⟨106, _⟩ => ⟨S1350000x1, .f32⟩
  | .hbm, ⟨107, _⟩ => ⟨S1350000x64, .f32⟩
  | .hbm, ⟨108, _⟩ => ⟨S1350000x64, .f32⟩
  | .hbm, ⟨109, _⟩ => ⟨S_, .f32⟩
  | .hbm, ⟨110, _⟩ => ⟨S150000x64, .f32⟩
  | .hbm, ⟨111, _⟩ => ⟨S1350000x1, .i32⟩
  | .hbm, ⟨112, _⟩ => ⟨S150000x64, .f32⟩
  | .hbm, ⟨113, _⟩ => ⟨S1x64, .f32⟩
  | .hbm, ⟨114, _⟩ => ⟨S64, .f32⟩
  | .hbm, ⟨115, _⟩ => ⟨S1x64, .f32⟩
  | .hbm, ⟨116, _⟩ => ⟨S150000x64, .f32⟩
  | .hbm, ⟨117, _⟩ => ⟨S150000x64, .f32⟩
  | .hbm, ⟨118, _⟩ => ⟨S100000x64, .f32⟩
  | .hbm, ⟨119, _⟩ => ⟨S50000x64, .f32⟩
  | _, _ => ⟨S2x1200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_9 : Ref sig .tc := ⟨.hbm, 73, rfl⟩
abbrev main_v55 : Ref sig .tc := ⟨.hbm, 74, rfl⟩
abbrev main_v56 : Ref sig .tc := ⟨.hbm, 75, rfl⟩
abbrev main_c_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_12 : Ref sig .tc := ⟨.hbm, 97, rfl⟩
abbrev main_v76 : Ref sig .tc := ⟨.hbm, 98, rfl⟩
abbrev main_v77 : Ref sig .tc := ⟨.hbm, 99, rfl⟩
abbrev main_c_13 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_14 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  slices_S2x1200000_S1x1200000_0_0 : S2x1200000.Slices ![0, 0] S1x1200000
  shapeCasts_S1x1200000_S1200000 : S1x1200000.ShapeCasts S1200000
  concatenates_S1200000_S150000_S1350000_d0 : Shape.Concatenates [S1200000, S150000] S1350000 0
  slices_S2x1200000_S1x1200000_1_0 : S2x1200000.Slices ![1, 0] S1x1200000
  bcast_S_S1350000 : S_.BroadcastsInDim S1350000 (![] : Fin 0 → Fin S1350000.rank)
  bcast_S_S150000 : S_.BroadcastsInDim S150000 (![] : Fin 0 → Fin S150000.rank)
  bcast_S1350000_S1350000x1_0 : S1350000.BroadcastsInDim S1350000x1 (![0] : Fin 1 → Fin S1350000x1.rank)
  slices_S3x64x64_S1x64x64_0_0_0 : S3x64x64.Slices ![0, 0, 0] S1x64x64
  shapeCasts_S1x64x64_S64x64 : S1x64x64.ShapeCasts S64x64
  bcast_S1350000x1_S1350000x64_0_1 : S1350000x1.BroadcastsInDim S1350000x64 (![0, 1] : Fin 2 → Fin S1350000x64.rank)
  bcast_S_S150000x64 : S_.BroadcastsInDim S150000x64 (![] : Fin 0 → Fin S150000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  slices_S150000x64_S100000x64_0_0 : S150000x64.Slices ![0, 0] S100000x64
  slices_S150000x64_S50000x64_100000_0 : S150000x64.Slices ![100000, 0] S50000x64
  scatter_S150000_S1350000x1_S1350000_n_0_0_1_wf : ScatterDims.WF S150000 S1350000x1 S1350000 [] [0] [0] 1
  gather_S150000_S1350000x1_S1350000_n_0_n_n_0_1_1_wf : GatherDims.WF S150000 S1350000x1 S1350000 [] [0] [] [0] [] 1 ![1]
  dot_S150000x64_S64x64_S150000x64_1_0_0_1_n_n_wf : DotDims.WF S150000x64 S64x64 S150000x64 [1] [0] [0] [1] [] []
  gather_S150000x64_S1350000x1_S1350000x64_1_0_n_n_0_1_164_wf : GatherDims.WF S150000x64 S1350000x1 S1350000x64 [1] [0] [] [0] [] 1 ![1, 64]
  scatter_S150000x64_S1350000x1_S1350000x64_1_0_0_1_wf : ScatterDims.WF S150000x64 S1350000x1 S1350000x64 [1] [0] [0] 1

variable [Facts₀]

def scatter_S150000_S1350000x1_S1350000_n_0_0_1 : ScatterDims S150000 S1350000x1 S1350000 where
  updateWindowDims := []
  insertedWindowDims := [0]
  scatterDimsToOperandDims := [0]
  indexVectorDim := 1
  wf := scatter_S150000_S1350000x1_S1350000_n_0_0_1_wf
def gather_S150000_S1350000x1_S1350000_n_0_n_n_0_1_1 : GatherDims S150000 S1350000x1 S1350000 where
  offsetDims := []
  collapsedSliceDims := [0]
  operandBatchingDims := []
  startIndicesBatchingDims := []
  startIndexMap := [0]
  indexVectorDim := 1
  sliceSizes := ![1]
  wf := gather_S150000_S1350000x1_S1350000_n_0_n_n_0_1_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S150000x64_S1350000x1_S1350000x64_1_0_n_n_0_1_164 : GatherDims S150000x64 S1350000x1 S1350000x64 where
  offsetDims := [1]
  collapsedSliceDims := [0]
  operandBatchingDims := []
  startIndicesBatchingDims := []
  startIndexMap := [0]
  indexVectorDim := 1
  sliceSizes := ![1, 64]
  wf := gather_S150000x64_S1350000x1_S1350000x64_1_0_n_n_0_1_164_wf
def scatter_S150000x64_S1350000x1_S1350000x64_1_0_0_1 : ScatterDims S150000x64 S1350000x1 S1350000x64 where
  updateWindowDims := [1]
  insertedWindowDims := [0]
  scatterDimsToOperandDims := [0]
  indexVectorDim := 1
  wf := scatter_S150000x64_S1350000x1_S1350000x64_1_0_0_1_wf

class Facts : Prop extends Facts₀ where

variable [Facts]
-- ==== Proof.KernelRun.lean ====
/-
  The idealized kernel's run, read at EVERY buffer.

  @main of the kernel is nine segments in a row: three stretches of host operations, the first launch, a stretch,
  the second launch, a stretch, the third launch, a last stretch. The generated frame certificate follows the
  TensorCore's buffer contents through these segments as a fold from the launch memory — `Gen.W0` at launch, a
  stretch's operations applied (`StableHlo.after`), a launch's three arrays replaced by what its pipeline leaves
  (`Pipeline.withArrays`) — ending at `Gen.W9`, and proves that every weakly fair execution terminates with the
  thread holding every unscoped buffer at `Gen.W9`. Its stated post keeps only the five argument arrays. The
  equivalence claim needs the two result arrays too, so here the same segments are run once more with the final
  reading kept whole: every unscoped buffer ends at `Gen.W9`. What `Gen.W9` holds at the results is then a
  computation on pure terms (Proof/Walk*.lean).
-/
import proofs.«116416_j19000935317532_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel's @main terminates, nothing
    faulting, and every unscoped buffer of every core ends at the fold's last valuation `Gen.W9`: the segments
    launched by the regions kit, the last thread state (every unscoped buffer held at `Gen.W9`) read against the
    final state, and nothing of that reading dropped. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element IS the pipeline library's, and no core is dealt a ghost resource of its own
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      -- each segment's post is the next one's pre as stated; the last stretch's post regrouped as the final thread state
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- at launch every unscoped buffer is held at the launch memory, which is `Gen.W0`
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      -- holding every unscoped buffer at `Gen.W9` beside the final state's interpretation, the final memory holds `Gen.W9` there
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- A TensorCore reference that is not scoped to a region is among the unscoped buffers the run reads. -/
theorem at_ref {r : PUnit × MemSt nD τ sig (Elt F)} (h : ∀ c : Dev nD, ∀ b ∈ Pipeline.ucRefs τ sig, r.2.mem (((c : Thread nD τ)).1, b) = W9 m ρ c b)
    (c : Dev nD) (b : Ref sig .tc) (hb : ¬ (Proc.devRef .tc b : DevRef τ sig).isScoped) :
    r.2.mem ((c.tc : Thread nD τ).loc b) = W9 m ρ c (Proc.devRef .tc b) :=
  h c _ (mem_uc b hb)

end Cert.KernelIdeal.Whole

end
-- ==== Proof.Walk0.lean ====
/-
  The walk, part 1: what the buffers hold when the first launch is entered.

  The kernel's @main and the reference's @main are the same list of host operations, line for line, except that the
  reference's three `dot_general`s are the kernel's three launches. So the kernel's buffers can be compared with the
  reference's values one stage at a time: `val_main_vN` (Proof/RefRead.lean) is the value the reference's operation
  number N writes, as a function of @main's arguments, each stage defined through the earlier ones. The walk shows,
  boundary by boundary along the kernel's nine segments, that every buffer still needed later holds the reference's
  stage of the SAME number, taken at the kernel's own arguments.

  This part covers the three stretches of host operations before the first launch (43 operations: the node features
  concatenated, the edge list with self-loops appended, the degree count, its inverse square root where the degree
  is positive, the edge weights `norm`, and the first layer's weight matrix sliced out). Here nothing but host
  operations has run, so each buffer's contents is read off the stretch (the operations applied to the launch
  memory, Lib/StableHlo/Run.lean) and is the reference's stage by unfolding the stages' definitions: the two sides
  are the same term.

  The three stretches are taken one at a time (`Gen.W1`, `Gen.W2`, `Gen.W3`), each read over an ARBITRARY valuation
  before it, about which only the previous boundary's facts are used: the reading of a stretch then mentions just the
  buffers the stretch reads, not how they came to hold what they hold.

  The middle stretch is the inlined body of `jnp.where`, whose operations are stated over references that carry
  their tensor type; reading them leaves a transport along "the buffer's type is the tensor's type" around each
  operand and result. At a literal reference that transport is the identity (`wrap_*`, `unwrap_*`).
-/
import proofs.«116416_j19000935317532_1_alg».proof.Proof.Gen.KernelIdeal.Frame
import proofs.«116416_j19000935317532_1_alg».proof.Proof.RefRead
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

/-! ## The transports of the inlined `jnp.where` are the identity at its literal references -/

theorem wrap_v15 (v : (⟨S150000, .f32⟩ : BufTy).Contents (Elt Ideal)) :
    (TRef.of main_v15 : TRef sig ⟨S150000, .f32⟩).toBuf (Val := Elt Ideal) v = v := rfl
theorem wrap_call0_v1 (v : (⟨S150000, .f32⟩ : BufTy).Contents (Elt Ideal)) :
    (TRef.of main_call0_v1 : TRef sig ⟨S150000, .f32⟩).toBuf (Val := Elt Ideal) v = v := rfl
theorem wrap_call0_v0 (v : (⟨S_, .f32⟩ : BufTy).Contents (Elt Ideal)) :
    (TRef.of main_call0_v0 : TRef sig ⟨S_, .f32⟩).toBuf (Val := Elt Ideal) v = v := rfl
theorem unwrap_v13 (v : main_v13.ty.Contents (Elt Ideal)) :
    (TRef.of main_v13 : TRef sig ⟨S150000, .i1⟩).ofBuf (Val := Elt Ideal) v = v := rfl
theorem unwrap_v14 (v : main_v14.ty.Contents (Elt Ideal)) :
    (TRef.of main_v14 : TRef sig ⟨S150000, .f32⟩).ofBuf (Val := Elt Ideal) v = v := rfl
theorem unwrap_call0_v1 (v : main_call0_v1.ty.Contents (Elt Ideal)) :
    (TRef.of main_call0_v1 : TRef sig ⟨S150000, .f32⟩).ofBuf (Val := Elt Ideal) v = v := rfl
theorem unwrap_call0_v0 (v : main_call0_v0.ty.Contents (Elt Ideal)) :
    (TRef.of main_call0_v0 : TRef sig ⟨S_, .f32⟩).ofBuf (Val := Elt Ideal) v = v := rfl
theorem unwrap_cst_2 (v : main_cst_2.ty.Contents (Elt Ideal)) :
    (TRef.of main_cst_2 : TRef sig ⟨S_, .f32⟩).ofBuf (Val := Elt Ideal) v = v := rfl

/-- Reads one buffer after a stretch of host operations: each operation's result at its own buffer is its function
    of its operands' contents, and any other buffer keeps what it held. The single pass does the bulk; the loop after
    it reaches the operands of a `concatenate`, which sit inside a list of (shape, array) pairs. -/
macro "read_stretch" : tactic =>
  `(tactic| (after_results_simp <;>
      (repeat (first
        | rw [nullary_result] | rw [unary_result] | rw [binary_result] | rw [ternary_result] | rw [reshape_result]
        | (rw [nullary_result_ne]; rotate_left; decide)
        | (rw [unary_result_ne]; rotate_left; decide)
        | (rw [binary_result_ne]; rotate_left; decide)
        | (rw [ternary_result_ne]; rotate_left; decide)
        | (rw [reshape_result_ne]; rotate_left; decide)))))

variable (m : (ℓ : Loc nD τ sig) → Buf (Elt Ideal) ℓ) (ρ : Dev nD → PrngReg) (c : Dev nD)

/-! ## After the first stretch (`Gen.W1`): 19 operations on the launch memory -/

/-- The node features: users' rows, then items' rows. -/
theorem W1_v0 : W1 m ρ c (Proc.devRef .tc main_v0) = Cert.ReferenceIdeal.ReadP.val_main_v0 (F := Ideal) (m ((c : Thread nD τ).loc main_arg1)) (m ((c : Thread nD τ).loc main_arg2)) := by
  read_stretch <;> rfl
/-- The edges' sources, self-loops appended. -/
theorem W1_v4 : W1 m ρ c (Proc.devRef .tc main_v4) = Cert.ReferenceIdeal.ReadP.val_main_v4 (F := Ideal) (m ((c : Thread nD τ).loc main_arg0)) := by
  read_stretch <;> rfl
/-- The edges' targets, self-loops appended. -/
theorem W1_v7 : W1 m ρ c (Proc.devRef .tc main_v7) = Cert.ReferenceIdeal.ReadP.val_main_v7 (F := Ideal) (m ((c : Thread nD τ).loc main_arg0)) := by
  read_stretch <;> rfl
/-- Where the degree is positive. -/
theorem W1_v13 : W1 m ρ c (Proc.devRef .tc main_v13) = Cert.ReferenceIdeal.ReadP.val_main_v13 (F := Ideal) (m ((c : Thread nD τ).loc main_arg0)) := by
  read_stretch <;> rfl
/-- The inverse square root of the degree. -/
theorem W1_v14 : W1 m ρ c (Proc.devRef .tc main_v14) = Cert.ReferenceIdeal.ReadP.val_main_v14 (F := Ideal) (m ((c : Thread nD τ).loc main_arg0)) := by
  read_stretch <;> rfl
/-- The zero that fills in where the degree is not positive. -/
theorem W1_cst_2 : W1 m ρ c (Proc.devRef .tc main_cst_2) = Cert.ReferenceIdeal.ReadP.val_main_cst_2 (F := Ideal) := by
  read_stretch <;> rfl
/-- The stacked weights and biases are not written. -/
theorem W1_arg3 : W1 m ρ c (Proc.devRef .tc main_arg3) = (m ((c : Thread nD τ).loc main_arg3)) := by
  read_stretch <;> rfl
theorem W1_arg4 : W1 m ρ c (Proc.devRef .tc main_arg4) = (m ((c : Thread nD τ).loc main_arg4)) := by
  read_stretch <;> rfl

/-! ## After `jnp.where` (`Gen.W2`) -/

set_option maxHeartbeats 400000 in
/-- The inverse square root of the degree where it is positive, zero elsewhere. -/
theorem W2_v15 : W2 m ρ c (Proc.devRef .tc main_v15) = Cert.ReferenceIdeal.ReadP.val_main_v15 (F := Ideal) (m ((c : Thread nD τ).loc main_arg0)) := by
  have h13 := W1_v13 m ρ c
  have h14 := W1_v14 m ρ c
  have hc := W1_cst_2 m ρ c
  show StableHlo.after hostOps0_1 (W1 m ρ c) (Proc.devRef .tc main_v15) = _
  generalize W1 m ρ c = V at h13 h14 hc ⊢
  read_stretch
  rw [wrap_v15, unwrap_v13, unwrap_v14, unwrap_call0_v1, wrap_call0_v1, unwrap_call0_v0, wrap_call0_v0, unwrap_cst_2]
  rw [h13, h14, hc]
  rfl
theorem W2_v0 : W2 m ρ c (Proc.devRef .tc main_v0) = Cert.ReferenceIdeal.ReadP.val_main_v0 (F := Ideal) (m ((c : Thread nD τ).loc main_arg1)) (m ((c : Thread nD τ).loc main_arg2)) := by
  have h_v0 := W1_v0 m ρ c
  show StableHlo.after hostOps0_1 (W1 m ρ c) (Proc.devRef .tc main_v0) = _
  generalize W1 m ρ c = V at h_v0 ⊢
  read_stretch <;> (try simp only [h_v0]) <;> rfl
theorem W2_v4 : W2 m ρ c (Proc.devRef .tc main_v4) = Cert.ReferenceIdeal.ReadP.val_main_v4 (F := Ideal) (m ((c : Thread nD τ).loc main_arg0)) := by
  have h_v4 := W1_v4 m ρ c
  show StableHlo.after hostOps0_1 (W1 m ρ c) (Proc.devRef .tc main_v4) = _
  generalize W1 m ρ c = V at h_v4 ⊢
  read_stretch <;> (try simp only [h_v4]) <;> rfl
theorem W2_v7 : W2 m ρ c (Proc.devRef .tc main_v7) = Cert.ReferenceIdeal.ReadP.val_main_v7 (F := Ideal) (m ((c : Thread nD τ).loc main_arg0)) := by
  have h_v7 := W1_v7 m ρ c
  show StableHlo.after hostOps0_1 (W1 m ρ c) (Proc.devRef .tc main_v7) = _
  generalize W1 m ρ c = V at h_v7 ⊢
  read_stretch <;> (try simp only [h_v7]) <;> rfl
theorem W2_arg3 : W2 m ρ c (Proc.devRef .tc main_arg3) = (m ((c : Thread nD τ).loc main_arg3)) := by
  have h_arg3 := W1_arg3 m ρ c
  show StableHlo.after hostOps0_1 (W1 m ρ c) (Proc.devRef .tc main_arg3) = _
  generalize W1 m ρ c = V at h_arg3 ⊢
  read_stretch <;> (try simp only [h_arg3]) <;> rfl
theorem W2_arg4 : W2 m ρ c (Proc.devRef .tc main_arg4) = (m ((c : Thread nD τ).loc main_arg4)) := by
  have h_arg4 := W1_arg4 m ρ c
  show StableHlo.after hostOps0_1 (W1 m ρ c) (Proc.devRef .tc main_arg4) = _
  generalize W1 m ρ c = V at h_arg4 ⊢
  read_stretch <;> (try simp only [h_arg4]) <;> rfl

/-! ## At the first launch's entry (`Gen.W3`) -/

set_option maxHeartbeats 2000000 in
/-- The edge weights: the inverse square roots of the two end points' degrees, multiplied. -/
theorem W3_v30 : W3 m ρ c (Proc.devRef .tc main_v30) = Cert.ReferenceIdeal.ReadP.val_main_v30 (F := Ideal) (m ((c : Thread nD τ).loc main_arg0)) := by
  have h_v15 := W2_v15 m ρ c
  have h_v4 := W2_v4 m ρ c
  have h_v7 := W2_v7 m ρ c
  show StableHlo.after hostOps0_2 (W2 m ρ c) (Proc.devRef .tc main_v30) = _
  generalize W2 m ρ c = V at h_v15 h_v4 h_v7 ⊢
  read_stretch <;> (try simp only [h_v15, h_v4, h_v7]) <;> rfl
/-- The first layer's weight matrix. -/
theorem W3_v32 : W3 m ρ c (Proc.devRef .tc main_v32) = Cert.ReferenceIdeal.ReadP.val_main_v32 (F := Ideal) (m ((c : Thread nD τ).loc main_arg3)) := by
  have h_arg3 := W2_arg3 m ρ c
  show StableHlo.after hostOps0_2 (W2 m ρ c) (Proc.devRef .tc main_v32) = _
  generalize W2 m ρ c = V at h_arg3 ⊢
  read_stretch <;> (try simp only [h_arg3]) <;> rfl
theorem W3_v0 : W3 m ρ c (Proc.devRef .tc main_v0) = Cert.ReferenceIdeal.ReadP.val_main_v0 (F := Ideal) (m ((c : Thread nD τ).loc main_arg1)) (m ((c : Thread nD τ).loc main_arg2)) := by
  have h_v0 := W2_v0 m ρ c
  show StableHlo.after hostOps0_2 (W2 m ρ c) (Proc.devRef .tc main_v0) = _
  generalize W2 m ρ c = V at h_v0 ⊢
  read_stretch <;> (try simp only [h_v0]) <;> rfl
theorem W3_v4 : W3 m ρ c (Proc.devRef .tc main_v4) = Cert.ReferenceIdeal.ReadP.val_main_v4 (F := Ideal) (m ((c : Thread nD τ).loc main_arg0)) := by
  have h_v4 := W2_v4 m ρ c
  show StableHlo.after hostOps0_2 (W2 m ρ c) (Proc.devRef .tc main_v4) = _
  generalize W2 m ρ c = V at h_v4 ⊢
  read_stretch <;> (try simp only [h_v4]) <;> rfl
theorem W3_v7 : W3 m ρ c (Proc.devRef .tc main_v7) = Cert.ReferenceIdeal.ReadP.val_main_v7 (F := Ideal) (m ((c : Thread nD τ).loc main_arg0)) := by
  have h_v7 := W2_v7 m ρ c
  show StableHlo.after hostOps0_2 (W2 m ρ c) (Proc.devRef .tc main_v7) = _
  generalize W2 m ρ c = V at h_v7 ⊢
  read_stretch <;> (try simp only [h_v7]) <;> rfl
theorem W3_arg3 : W3 m ρ c (Proc.devRef .tc main_arg3) = (m ((c : Thread nD τ).loc main_arg3)) := by
  have h_arg3 := W2_arg3 m ρ c
  show StableHlo.after hostOps0_2 (W2 m ρ c) (Proc.devRef .tc main_arg3) = _
  generalize W2 m ρ c = V at h_arg3 ⊢
  read_stretch <;> (try simp only [h_arg3]) <;> rfl
theorem W3_arg4 : W3 m ρ c (Proc.devRef .tc main_arg4) = (m ((c : Thread nD τ).loc main_arg4)) := by
  have h_arg4 := W2_arg4 m ρ c
  show StableHlo.after hostOps0_2 (W2 m ρ c) (Proc.devRef .tc main_arg4) = _
  generalize W2 m ρ c = V at h_arg4 ⊢
  read_stretch <;> (try simp only [h_arg4]) <;> rfl

end Cert.KernelIdeal.Walk

end
-- ==== Proof.MatProduct.lean ====
/-
  The one piece of arithmetic in this certificate: a matrix product read at an entry.

  At the ideal values a product of an [n, 64] array with a [64, 64] array has, at entry (r, c), the value
  `∑ k, x (r, k) * w (k, c)` over the 64 contracted positions — an exact sum of exact products on the extended
  reals, with no rounding, no accumulation order and no change of float format left in it. This holds both for the
  host's `dot_general` on the whole [150000, 64] array and for the kernel body's `tpu.matmul` on one [6000, 64]
  block: the body first casts both operands to bf16 (the identity at the ideal values), then multiplies into a zero
  accumulator (zero plus the sum is the sum). Both are stated here over the same index type `Fin 64` for the
  contracted axis, with the operand entries named by explicit (row, column) coordinates, so that the two sides
  can be compared entry by entry.
-/
import proofs.«116416_j19000935317532_1_alg».proof.Proof.Gen.KernelIdeal.Skeleton
import proofs.«116416_j19000935317532_1_alg».proof.Proof.Gen.ReferenceIdeal
import Idealize.ShloMosaic.PureOps.Ideal.Laws
import Idealize.ShloMosaic.Lib.ValueIdx
import Idealize.ShloMosaic.Lib.Pipeline.Value

noncomputable section

namespace Cert.MatProduct

open Idealize.ShloMosaic

/-! ## The whole product: the host's `dot_general` of a [150000, 64] array with a [64, 64] array -/

section Whole

/-- Entry (row of `i`, `k`) of the left operand. -/
abbrev rowAt (i : Cert.ReferenceIdeal.S150000x64.Idx) (k : Fin 64) : Cert.ReferenceIdeal.S150000x64.Idx := fun a => match a with
  | ⟨0, _⟩ => ⟨(i 0).val, (i 0).isLt⟩
  | ⟨1, _⟩ => ⟨k.val, k.isLt⟩
/-- Entry (`k`, column of `i`) of the right operand. -/
abbrev colAt (i : Cert.ReferenceIdeal.S150000x64.Idx) (k : Fin 64) : Cert.ReferenceIdeal.S64x64.Idx := fun a => match a with
  | ⟨0, _⟩ => ⟨k.val, k.isLt⟩
  | ⟨1, _⟩ => ⟨(i 1).val, (i 1).isLt⟩

theorem whole_lhs_0 (i : Cert.ReferenceIdeal.S150000x64.Idx) (q : Cert.ReferenceIdeal.dot_S150000x64_S64x64_S150000x64_1_0_0_1_n_n.contr.Idx) :
    (Cert.ReferenceIdeal.dot_S150000x64_S64x64_S150000x64_1_0_0_1_n_n.lhsIdx i q 0).val = (i 0).val := by
  unfold DotDims.lhsIdx
  rw [dif_neg (show ¬(0 : Fin Cert.ReferenceIdeal.S150000x64.rank) ∈ Cert.ReferenceIdeal.dot_S150000x64_S64x64_S150000x64_1_0_0_1_n_n.lhsBatch by decide),
    dif_pos (show (0 : Fin Cert.ReferenceIdeal.S150000x64.rank) ∈ Cert.ReferenceIdeal.dot_S150000x64_S64x64_S150000x64_1_0_0_1_n_n.lhsNonContracting by decide)]
  rfl
theorem whole_lhs_1 (i : Cert.ReferenceIdeal.S150000x64.Idx) (q : Cert.ReferenceIdeal.dot_S150000x64_S64x64_S150000x64_1_0_0_1_n_n.contr.Idx) :
    (Cert.ReferenceIdeal.dot_S150000x64_S64x64_S150000x64_1_0_0_1_n_n.lhsIdx i q 1).val = (q ⟨0, by decide⟩).val :=
  Cert.ReferenceIdeal.dot_S150000x64_S64x64_S150000x64_1_0_0_1_n_n.lhsIdx_val_of_single rfl i q
theorem whole_rhs_0 (i : Cert.ReferenceIdeal.S150000x64.Idx) (q : Cert.ReferenceIdeal.dot_S150000x64_S64x64_S150000x64_1_0_0_1_n_n.contr.Idx) :
    (Cert.ReferenceIdeal.dot_S150000x64_S64x64_S150000x64_1_0_0_1_n_n.rhsIdx i q 0).val = (q ⟨0, by decide⟩).val :=
  Cert.ReferenceIdeal.dot_S150000x64_S64x64_S150000x64_1_0_0_1_n_n.rhsIdx_val_of_single rfl i q
theorem whole_rhs_1 (i : Cert.ReferenceIdeal.S150000x64.Idx) (q : Cert.ReferenceIdeal.dot_S150000x64_S64x64_S150000x64_1_0_0_1_n_n.contr.Idx) :
    (Cert.ReferenceIdeal.dot_S150000x64_S64x64_S150000x64_1_0_0_1_n_n.rhsIdx i q 1).val = (i 1).val := by
  unfold DotDims.rhsIdx
  rw [dif_neg (show ¬(1 : Fin Cert.ReferenceIdeal.S64x64.rank) ∈ Cert.ReferenceIdeal.dot_S150000x64_S64x64_S150000x64_1_0_0_1_n_n.rhsBatch by decide),
    dif_pos (show (1 : Fin Cert.ReferenceIdeal.S64x64.rank) ∈ Cert.ReferenceIdeal.dot_S150000x64_S64x64_S150000x64_1_0_0_1_n_n.rhsNonContracting by decide)]
  rfl

/-- The host's product at entry `i`: the sum over the 64 contracted positions of row entry times column entry. -/
theorem whole_apply (y0 : FVec Ideal Cert.ReferenceIdeal.S150000x64 .f32)
    (y1 : FVec Ideal Cert.ReferenceIdeal.S64x64 .f32) (i : Cert.ReferenceIdeal.S150000x64.Idx) :
    Host.dotGeneral (F := Ideal) (φ₁ := .f32) (φ₂ := .f32) Cert.ReferenceIdeal.dot_S150000x64_S64x64_S150000x64_1_0_0_1_n_n none y0 y1 i
      = ∑ k : Fin 64, y0 (rowAt i k) * y1 (colAt i k) := by
  simp only [Host.dotGeneral]
  rw [Ideal.dotGeneral_apply, ← Equiv.sum_comp (ValueIdx.contrEquiv1 Cert.ReferenceIdeal.dot_S150000x64_S64x64_S150000x64_1_0_0_1_n_n 64 rfl rfl).symm]
  refine Finset.sum_congr rfl fun k _ => ?_
  have hk := ValueIdx.contrEquiv1_symm_val Cert.ReferenceIdeal.dot_S150000x64_S64x64_S150000x64_1_0_0_1_n_n 64 rfl rfl k
  have el : Cert.ReferenceIdeal.dot_S150000x64_S64x64_S150000x64_1_0_0_1_n_n.lhsIdx i ((ValueIdx.contrEquiv1 Cert.ReferenceIdeal.dot_S150000x64_S64x64_S150000x64_1_0_0_1_n_n 64 rfl rfl).symm k) = rowAt i k :=
    funext fun a => Fin.ext (by
      match a with
      | ⟨0, _⟩ => exact whole_lhs_0 _ _
      | ⟨1, _⟩ => exact (whole_lhs_1 _ _).trans hk)
  have er : Cert.ReferenceIdeal.dot_S150000x64_S64x64_S150000x64_1_0_0_1_n_n.rhsIdx i ((ValueIdx.contrEquiv1 Cert.ReferenceIdeal.dot_S150000x64_S64x64_S150000x64_1_0_0_1_n_n 64 rfl rfl).symm k) = colAt i k :=
    funext fun a => Fin.ext (by
      match a with
      | ⟨0, _⟩ => exact (whole_rhs_0 _ _).trans hk
      | ⟨1, _⟩ => exact whole_rhs_1 _ _)
  rw [el, er]

end Whole

/-! ## One block: the kernel body's `tpu.matmul` of a [6000, 64] block with the [64, 64] weights -/

section Block

/-- Entry (row of `j`, `k`) of the block. -/
abbrev browAt (j : Cert.KernelIdeal.S6000x64.Idx) (k : Fin 64) : Cert.KernelIdeal.S6000x64.Idx := fun a => match a with
  | ⟨0, _⟩ => ⟨(j 0).val, (j 0).isLt⟩
  | ⟨1, _⟩ => ⟨k.val, k.isLt⟩
/-- Entry (`k`, column of `j`) of the weights. -/
abbrev bcolAt (j : Cert.KernelIdeal.S6000x64.Idx) (k : Fin 64) : Cert.KernelIdeal.S64x64.Idx := fun a => match a with
  | ⟨0, _⟩ => ⟨k.val, k.isLt⟩
  | ⟨1, _⟩ => ⟨(j 1).val, (j 1).isLt⟩

theorem block_lhs_0 (j : Cert.KernelIdeal.S6000x64.Idx) (q : Cert.KernelIdeal.dot_S6000x64_S64x64_S6000x64_1_0_0_1_n_n.contr.Idx) :
    (Cert.KernelIdeal.dot_S6000x64_S64x64_S6000x64_1_0_0_1_n_n.lhsIdx j q 0).val = (j 0).val := by
  unfold DotDims.lhsIdx
  rw [dif_neg (show ¬(0 : Fin Cert.KernelIdeal.S6000x64.rank) ∈ Cert.KernelIdeal.dot_S6000x64_S64x64_S6000x64_1_0_0_1_n_n.lhsBatch by decide),
    dif_pos (show (0 : Fin Cert.KernelIdeal.S6000x64.rank) ∈ Cert.KernelIdeal.dot_S6000x64_S64x64_S6000x64_1_0_0_1_n_n.lhsNonContracting by decide)]
  rfl
theorem block_lhs_1 (j : Cert.KernelIdeal.S6000x64.Idx) (q : Cert.KernelIdeal.dot_S6000x64_S64x64_S6000x64_1_0_0_1_n_n.contr.Idx) :
    (Cert.KernelIdeal.dot_S6000x64_S64x64_S6000x64_1_0_0_1_n_n.lhsIdx j q 1).val = (q ⟨0, by decide⟩).val :=
  Cert.KernelIdeal.dot_S6000x64_S64x64_S6000x64_1_0_0_1_n_n.lhsIdx_val_of_single rfl j q
theorem block_rhs_0 (j : Cert.KernelIdeal.S6000x64.Idx) (q : Cert.KernelIdeal.dot_S6000x64_S64x64_S6000x64_1_0_0_1_n_n.contr.Idx) :
    (Cert.KernelIdeal.dot_S6000x64_S64x64_S6000x64_1_0_0_1_n_n.rhsIdx j q 0).val = (q ⟨0, by decide⟩).val :=
  Cert.KernelIdeal.dot_S6000x64_S64x64_S6000x64_1_0_0_1_n_n.rhsIdx_val_of_single rfl j q
theorem block_rhs_1 (j : Cert.KernelIdeal.S6000x64.Idx) (q : Cert.KernelIdeal.dot_S6000x64_S64x64_S6000x64_1_0_0_1_n_n.contr.Idx) :
    (Cert.KernelIdeal.dot_S6000x64_S64x64_S6000x64_1_0_0_1_n_n.rhsIdx j q 1).val = (j 1).val := by
  unfold DotDims.rhsIdx
  rw [dif_neg (show ¬(1 : Fin Cert.KernelIdeal.S64x64.rank) ∈ Cert.KernelIdeal.dot_S6000x64_S64x64_S6000x64_1_0_0_1_n_n.rhsBatch by decide),
    dif_pos (show (1 : Fin Cert.KernelIdeal.S64x64.rank) ∈ Cert.KernelIdeal.dot_S6000x64_S64x64_S6000x64_1_0_0_1_n_n.rhsNonContracting by decide)]
  rfl

/-- The body's arithmetic on one block, as one term: cast both operands to bf16, multiply into a zero accumulator. -/
def blockProduct (v0 : Vec Ideal Cert.KernelIdeal.S6000x64 .f32) (v3 : Vec Ideal Cert.KernelIdeal.S64x64 .f32) : FVec Ideal Cert.KernelIdeal.S6000x64 .f32 :=
  matmul Cert.KernelIdeal.dot_S6000x64_S64x64_S6000x64_1_0_0_1_n_n none
    (truncf .bf16 (shapeCast Cert.KernelIdeal.S6000x64 v0 Cert.KernelIdeal.Facts₀.shapeCasts_S6000x64_S6000x64) Cert.KernelIdeal.Facts₀.bitsLt_bf16_f32)
    (truncf .bf16 (shapeCast Cert.KernelIdeal.S64x64 v3 Cert.KernelIdeal.Facts₀.shapeCasts_S64x64_S64x64) Cert.KernelIdeal.Facts₀.bitsLt_bf16_f32)
    (constant (F := Ideal) Cert.KernelIdeal.S6000x64 .f32 0x00000000#32)

/-- Each launch's payload is that term (the three launches run the same body). -/
theorem pay0_eq (v0 : Vec Ideal Cert.KernelIdeal.S6000x64 .f32) (v3 : Vec Ideal Cert.KernelIdeal.S64x64 .f32) :
    Cert.KernelIdeal.Gen.k0_pay1 (F := Ideal) v0 v3 = blockProduct v0 v3 := rfl
theorem pay1_eq (v0 : Vec Ideal Cert.KernelIdeal.S6000x64 .f32) (v3 : Vec Ideal Cert.KernelIdeal.S64x64 .f32) :
    Cert.KernelIdeal.Gen.k1_pay1 (F := Ideal) v0 v3 = blockProduct v0 v3 := rfl
theorem pay2_eq (v0 : Vec Ideal Cert.KernelIdeal.S6000x64 .f32) (v3 : Vec Ideal Cert.KernelIdeal.S64x64 .f32) :
    Cert.KernelIdeal.Gen.k2_pay1 (F := Ideal) v0 v3 = blockProduct v0 v3 := rfl

/-- The block's product at entry `j`: the casts are the identity, zero plus the sum is the sum. -/
theorem block_apply (v0 : Vec Ideal Cert.KernelIdeal.S6000x64 .f32) (v3 : Vec Ideal Cert.KernelIdeal.S64x64 .f32) (j : Cert.KernelIdeal.S6000x64.Idx) :
    blockProduct v0 v3 j = ∑ k : Fin 64, v0 (browAt j k) * v3 (bcolAt j k) := by
  unfold blockProduct
  simp only [matmul]
  rw [Ideal.matmul_constant_zero_apply, ← Equiv.sum_comp (ValueIdx.contrEquiv1 Cert.KernelIdeal.dot_S6000x64_S64x64_S6000x64_1_0_0_1_n_n 64 rfl rfl).symm]
  refine Finset.sum_congr rfl fun k _ => ?_
  have hk := ValueIdx.contrEquiv1_symm_val Cert.KernelIdeal.dot_S6000x64_S64x64_S6000x64_1_0_0_1_n_n 64 rfl rfl k
  have el : Cert.KernelIdeal.dot_S6000x64_S64x64_S6000x64_1_0_0_1_n_n.lhsIdx j ((ValueIdx.contrEquiv1 Cert.KernelIdeal.dot_S6000x64_S64x64_S6000x64_1_0_0_1_n_n 64 rfl rfl).symm k) = browAt j k :=
    funext fun a => Fin.ext (by
      match a with
      | ⟨0, _⟩ => exact block_lhs_0 _ _
      | ⟨1, _⟩ => exact (block_lhs_1 _ _).trans hk)
  have er : Cert.KernelIdeal.dot_S6000x64_S64x64_S6000x64_1_0_0_1_n_n.rhsIdx j ((ValueIdx.contrEquiv1 Cert.KernelIdeal.dot_S6000x64_S64x64_S6000x64_1_0_0_1_n_n 64 rfl rfl).symm k) = bcolAt j k :=
    funext fun a => Fin.ext (by
      match a with
      | ⟨0, _⟩ => exact (block_rhs_0 _ _).trans hk
      | ⟨1, _⟩ => exact block_rhs_1 _ _)
  rw [el, er]
  simp only [truncf, Ideal.truncf_def, shapeCast_self]

end Block

/-! ## A block's entry against the whole product's entry -/

section Compare

/-- If, along the contracted axis, the block's row at `j` is the array's row at `i` and the weights' column at `j` is the
    matrix's column at `i`, then the block's product at `j` is the whole product at `i`: both are the same sum of 64 products. -/
theorem block_eq_whole (x0 : Vec Ideal Cert.KernelIdeal.S6000x64 .f32) (x1 : Vec Ideal Cert.KernelIdeal.S64x64 .f32)
    (y0 : FVec Ideal Cert.ReferenceIdeal.S150000x64 .f32) (y1 : FVec Ideal Cert.ReferenceIdeal.S64x64 .f32)
    (j : Cert.KernelIdeal.S6000x64.Idx) (i : Cert.ReferenceIdeal.S150000x64.Idx)
    (h0 : ∀ k : Fin 64, x0 (browAt j k) = y0 (rowAt i k)) (h1 : ∀ k : Fin 64, x1 (bcolAt j k) = y1 (colAt i k)) :
    blockProduct x0 x1 j = Host.dotGeneral (F := Ideal) (φ₁ := .f32) (φ₂ := .f32) Cert.ReferenceIdeal.dot_S150000x64_S64x64_S150000x64_1_0_0_1_n_n none y0 y1 i := by
  rw [block_apply, whole_apply]
  exact Finset.sum_congr rfl fun k _ => by rw [h0 k, h1 k]

end Compare

end Cert.MatProduct

end
-- ==== Proof.Launch0.lean ====
/-
  Launch 0 of the kernel leaves, in its result array, the product of its two operand arrays.

  The launch walks a grid of 25 points. At point t it fetches rows 6000·t … 6000·t + 5999 of the [150000, 64]
  operand (a [6000, 64] block) and the whole [64, 64] weight matrix, multiplies them in the body, and writes the
  [6000, 64] result back as rows 6000·t … 6000·t + 5999 of the result array. Row r of the result therefore comes from
  point r / 6000, and entry (r, c) is the sum over k of operand (r, k) times weight (k, c): entry (r, c) of the whole
  product. The 25 blocks tile the 150000 rows, so the result array IS the whole product — whatever the operand arrays
  hold when the launch is entered (`V`).
-/
import proofs.«116416_j19000935317532_1_alg».proof.Proof.Gen.KernelIdeal.Frame
import proofs.«116416_j19000935317532_1_alg».proof.Proof.MatProduct

set_option maxRecDepth 16384

noncomputable section

namespace Cert.KernelIdeal.Launch0

open Cert.KernelIdeal Cert.KernelIdeal.Gen Cert.MatProduct
open Idealize.ShloMosaic Idealize.ShloMosaic.TcCoe Idealize.SL.Sem
open Idealize.ShloMosaic.Pipeline (Dat)

-- the buffer contents when the launch is entered
variable (V : (c : Dev nD) → (b : Ref sig .tc) → Buf (Elt Ideal) ((c : Thread nD τ).loc b))

theorem zeros : (![0, 0] : Fin 2 → Nat) = fun _ => 0 := funext fun a => by fin_cases a <;> rfl

/-- The whole product of the operand arrays as the launch finds them. -/
def product (c : Dev nD) : Buf (Elt Ideal) ((c : Thread nD τ).loc main_v33) :=
  Host.dotGeneral (F := Ideal) (φ₁ := .f32) (φ₂ := .f32) Cert.ReferenceIdeal.dot_S150000x64_S64x64_S150000x64_1_0_0_1_n_n none (V c main_v0) (V c main_v32)

/-- The printed index maps, decided once over the 25 grid points: the operand's and the result's blocks are block t
    along the rows and the only block along the columns; the weights' block is always the only one. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the whole product. -/
theorem flushed_eq (c : Dev nD) (t : Fin cfg0.N) :
    (dat0 (F := Ideal) V c).flushed 2 t = ((cfg0.win 2).blk t).view.read (Elt Ideal) (product V c) := by
  show (cfg0.win 2).cut (grid0.coords t) ((dat0 (F := Ideal) V c).after 2 t) = _
  rw [after0_2]
  unfold out0_2
  rw [View.canon_unit_zero zeros]
  simp only [View.ld_unit_zero (S := S6000x64) zeros, View.ld_unit_zero (S := S64x64) zeros]
  rw [pay0_eq]
  obtain ⟨e00, e01, e10, e11, e20, e21⟩ := index_facts t
  funext j
  show blockProduct (iblk0 V c 0 t) (iblk0 V c 1 t) j = product V c (((cfg0.win 2).blk t).view.emb j)
  unfold product
  refine block_eq_whole _ _ _ _ _ _ (fun k => ?_) (fun k => ?_)
  · -- the block's row is the array's row 6000·t + (row of j)
    show V c main_v0 (((cfg0.win 0).blk t).view.emb (browAt j k)) = V c main_v0 (rowAt (((cfg0.win 2).blk t).view.emb j) k)
    refine congrArg (V c main_v0) (funext fun a => Fin.ext ?_)
    match a with
    | ⟨0, _⟩ => show win0_0.index t (0 : Fin 2) * 6000 + 1 * (j 0).val = win0_2.index t (0 : Fin 2) * 6000 + 1 * (j 0).val; omega
    | ⟨1, _⟩ => show win0_0.index t (1 : Fin 2) * 64 + 1 * k.val = k.val; omega
  · -- the weights' block is the whole matrix
    show V c main_v32 (((cfg0.win 1).blk t).view.emb (bcolAt j k)) = V c main_v32 (colAt (((cfg0.win 2).blk t).view.emb j) k)
    refine congrArg (V c main_v32) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega

/-- An entry of the result array is in point t's block iff each coordinate is in the block's range on its axis. -/
theorem mem_blk (t : Fin cfg0.N) (i : S150000x64.Idx) :
    i ∈ ((cfg0.win 2).blk t).view.set ↔ ∀ a : Fin 2, win0_2.index t a * S6000x64.size a ≤ (i a).val ∧ (i a).val < win0_2.index t a * S6000x64.size a + S6000x64.size a := by
  show i ∈ ((View.whole main_v33).slice (win0_2.rect t)).set ↔ _
  rw [View.set_slice_whole, Rect.mem_set_unit]
  exact Iff.rfl

/-- THE COVER: row r of the result array lies in the block of point r / 6000, which is written back. -/
theorem cover (i : S150000x64.Idx) : ∃ t : Fin cfg0.N, (cfg0.win 2).flush t = true ∧ i ∈ ((cfg0.win 2).blk t).view.set := by
  have hN : grid0.N = 25 := N_0
  have hi0 : (i 0).val < 150000 := (i 0).isLt
  have hi1 : (i 1).val < 64 := (i 1).isLt
  have ht : (i 0).val / 6000 < grid0.N := by omega
  refine ⟨⟨(i 0).val / 6000, ht⟩, flush0_2 _, ?_⟩
  rw [mem_blk]
  obtain ⟨-, -, -, -, e20, e21⟩ := index_facts ⟨(i 0).val / 6000, ht⟩
  intro a
  match a with
  | ⟨0, _⟩ =>
    show win0_2.index ⟨(i 0).val / 6000, ht⟩ (0 : Fin 2) * 6000 ≤ (i 0).val ∧ (i 0).val < win0_2.index ⟨(i 0).val / 6000, ht⟩ (0 : Fin 2) * 6000 + 6000
    rw [e20]; show (i 0).val / 6000 * 6000 ≤ (i 0).val ∧ (i 0).val < (i 0).val / 6000 * 6000 + 6000; omega
  | ⟨1, _⟩ =>
    show win0_2.index ⟨(i 0).val / 6000, ht⟩ (1 : Fin 2) * 64 ≤ (i 1).val ∧ (i 1).val < win0_2.index ⟨(i 0).val / 6000, ht⟩ (1 : Fin 2) * 64 + 64
    rw [e21]; omega

/-- THE RESULT ARRAY after the launch is the whole product of the operand arrays as the launch found them. -/
theorem result_eq (c : Dev nD) : (dat0 (F := Ideal) V c).arrAt 2 cfg0.N = product V c :=
  (dat0 (F := Ideal) V c).arrAt_eq_of_cover 2 (product V c) (fun t _ => flushed_eq V c t) (cover)

end Cert.KernelIdeal.Launch0

end
-- ==== Proof.Walk1.lean ====
/-
  The walk, part 2: launch 0 and the stretch of host operations after it.

  The launch replaces its result array by the product of its two operand arrays (Proof/Launch0.lean) and leaves
  every other buffer as it was. Its operands hold, by the previous part, the reference's stages; so the result array
  holds the reference's `dot_general` of those stages — which is the reference's next stage by definition. The
  stretch after it (gather the transformed features along the edges' sources, scale by the edge weights,
  scatter-add into the targets, add the layer's bias, slice out the next weight matrix) is again host operations
  only, read off as in part 1 with the operands' contents replaced by the stages they hold.
-/
import proofs.«116416_j19000935317532_1_alg».proof.Proof.Walk0
import proofs.«116416_j19000935317532_1_alg».proof.Proof.Launch0

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After launch 0 (`Gen.W4`) -/

/-- The first layer's linear transform: the node features times the first weight matrix. -/
theorem W4_v33 : W4 m ρ c (Proc.devRef .tc main_v33) = Cert.ReferenceIdeal.ReadP.val_main_v33 (F := Ideal) (m ((c : Thread nD τ).loc main_arg1)) (m ((c : Thread nD τ).loc main_arg2)) (m ((c : Thread nD τ).loc main_arg3)) := by
  refine (W4_arr m ρ c 2).trans ((Cert.KernelIdeal.Launch0.result_eq (V3 m ρ) c).trans ?_)
  unfold Cert.KernelIdeal.Launch0.product
  show Host.dotGeneral (F := Ideal) (φ₁ := .f32) (φ₂ := .f32) Cert.ReferenceIdeal.dot_S150000x64_S64x64_S150000x64_1_0_0_1_n_n none
    (W3 m ρ c (Proc.devRef .tc main_v0)) (W3 m ρ c (Proc.devRef .tc main_v32)) = _
  rw [W3_v0, W3_v32]
  rfl
theorem W4_v4 : W4 m ρ c (Proc.devRef .tc main_v4) = Cert.ReferenceIdeal.ReadP.val_main_v4 (F := Ideal) (m ((c : Thread nD τ).loc main_arg0)) :=
  (W4_of_ne m ρ c main_v4 (by decide)).trans (W3_v4 m ρ c)
theorem W4_v7 : W4 m ρ c (Proc.devRef .tc main_v7) = Cert.ReferenceIdeal.ReadP.val_main_v7 (F := Ideal) (m ((c : Thread nD τ).loc main_arg0)) :=
  (W4_of_ne m ρ c main_v7 (by decide)).trans (W3_v7 m ρ c)
theorem W4_v30 : W4 m ρ c (Proc.devRef .tc main_v30) = Cert.ReferenceIdeal.ReadP.val_main_v30 (F := Ideal) (m ((c : Thread nD τ).loc main_arg0)) :=
  (W4_of_ne m ρ c main_v30 (by decide)).trans (W3_v30 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)

/-! ## At the next launch's entry (`Gen.W5`) -/

set_option maxHeartbeats 2000000 in
/-- The first layer's output: messages summed into their targets, plus the bias. -/
theorem W5_v51 : W5 m ρ c (Proc.devRef .tc main_v51) = Cert.ReferenceIdeal.ReadP.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h_v33 := W4_v33 m ρ c
  have h_v4 := W4_v4 m ρ c
  have h_v7 := W4_v7 m ρ c
  have h_v30 := W4_v30 m ρ c
  have h_arg4 := W4_arg4 m ρ c
  show StableHlo.after hostOps1 (W4 m ρ c) (Proc.devRef .tc main_v51) = _
  generalize W4 m ρ c = V at h_v33 h_v4 h_v7 h_v30 h_arg4 ⊢
  read_stretch <;> (try simp only [h_v33, h_v4, h_v7, h_v30, h_arg4]) <;> rfl
/-- The second layer's weight matrix. -/
theorem W5_v53 : W5 m ρ c (Proc.devRef .tc main_v53) = Cert.ReferenceIdeal.ReadP.val_main_v53 (F := Ideal) (m ((c : Thread nD τ).loc main_arg3)) := by
  have h_arg3 := W4_arg3 m ρ c
  show StableHlo.after hostOps1 (W4 m ρ c) (Proc.devRef .tc main_v53) = _
  generalize W4 m ρ c = V at h_arg3 ⊢
  read_stretch <;> (try simp only [h_arg3]) <;> rfl
theorem W5_v4 : W5 m ρ c (Proc.devRef .tc main_v4) = Cert.ReferenceIdeal.ReadP.val_main_v4 (F := Ideal) (m ((c : Thread nD τ).loc main_arg0)) := by
  have h_v4 := W4_v4 m ρ c
  show StableHlo.after hostOps1 (W4 m ρ c) (Proc.devRef .tc main_v4) = _
  generalize W4 m ρ c = V at h_v4 ⊢
  read_stretch <;> (try simp only [h_v4]) <;> rfl
theorem W5_v7 : W5 m ρ c (Proc.devRef .tc main_v7) = Cert.ReferenceIdeal.ReadP.val_main_v7 (F := Ideal) (m ((c : Thread nD τ).loc main_arg0)) := by
  have h_v7 := W4_v7 m ρ c
  show StableHlo.after hostOps1 (W4 m ρ c) (Proc.devRef .tc main_v7) = _
  generalize W4 m ρ c = V at h_v7 ⊢
  read_stretch <;> (try simp only [h_v7]) <;> rfl
theorem W5_v30 : W5 m ρ c (Proc.devRef .tc main_v30) = Cert.ReferenceIdeal.ReadP.val_main_v30 (F := Ideal) (m ((c : Thread nD τ).loc main_arg0)) := by
  have h_v30 := W4_v30 m ρ c
  show StableHlo.after hostOps1 (W4 m ρ c) (Proc.devRef .tc main_v30) = _
  generalize W4 m ρ c = V at h_v30 ⊢
  read_stretch <;> (try simp only [h_v30]) <;> rfl
theorem W5_arg3 : W5 m ρ c (Proc.devRef .tc main_arg3) = (m ((c : Thread nD τ).loc main_arg3)) := by
  have h_arg3 := W4_arg3 m ρ c
  show StableHlo.after hostOps1 (W4 m ρ c) (Proc.devRef .tc main_arg3) = _
  generalize W4 m ρ c = V at h_arg3 ⊢
  read_stretch <;> (try simp only [h_arg3]) <;> rfl
theorem W5_arg4 : W5 m ρ c (Proc.devRef .tc main_arg4) = (m ((c : Thread nD τ).loc main_arg4)) := by
  have h_arg4 := W4_arg4 m ρ c
  show StableHlo.after hostOps1 (W4 m ρ c) (Proc.devRef .tc main_arg4) = _
  generalize W4 m ρ c = V at h_arg4 ⊢
  read_stretch <;> (try simp only [h_arg4]) <;> rfl

end Cert.KernelIdeal.Walk

end
-- ==== Proof.Launch1.lean ====
/-
  Launch 1 of the kernel leaves, in its result array, the product of its two operand arrays.

  The launch walks a grid of 25 points. At point t it fetches rows 6000·t … 6000·t + 5999 of the [150000, 64]
  operand (a [6000, 64] block) and the whole [64, 64] weight matrix, multiplies them in the body, and writes the
  [6000, 64] result back as rows 6000·t … 6000·t + 5999 of the result array. Row r of the result therefore comes from
  point r / 6000, and entry (r, c) is the sum over k of operand (r, k) times weight (k, c): entry (r, c) of the whole
  product. The 25 blocks tile the 150000 rows, so the result array IS the whole product — whatever the operand arrays
  hold when the launch is entered (`V`).
-/
import proofs.«116416_j19000935317532_1_alg».proof.Proof.Gen.KernelIdeal.Frame
import proofs.«116416_j19000935317532_1_alg».proof.Proof.MatProduct

set_option maxRecDepth 16384

noncomputable section

namespace Cert.KernelIdeal.Launch1

open Cert.KernelIdeal Cert.KernelIdeal.Gen Cert.MatProduct
open Idealize.ShloMosaic Idealize.ShloMosaic.TcCoe Idealize.SL.Sem
open Idealize.ShloMosaic.Pipeline (Dat)

-- the buffer contents when the launch is entered
variable (V : (c : Dev nD) → (b : Ref sig .tc) → Buf (Elt Ideal) ((c : Thread nD τ).loc b))

theorem zeros : (![0, 0] : Fin 2 → Nat) = fun _ => 0 := funext fun a => by fin_cases a <;> rfl

/-- The whole product of the operand arrays as the launch finds them. -/
def product (c : Dev nD) : Buf (Elt Ideal) ((c : Thread nD τ).loc main_v54) :=
  Host.dotGeneral (F := Ideal) (φ₁ := .f32) (φ₂ := .f32) Cert.ReferenceIdeal.dot_S150000x64_S64x64_S150000x64_1_0_0_1_n_n none (V c main_v51) (V c main_v53)

/-- The printed index maps, decided once over the 25 grid points: the operand's and the result's blocks are block t
    along the rows and the only block along the columns; the weights' block is always the only one. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is block t of the whole product. -/
theorem flushed_eq (c : Dev nD) (t : Fin cfg1.N) :
    (dat1 (F := Ideal) V c).flushed 2 t = ((cfg1.win 2).blk t).view.read (Elt Ideal) (product V c) := by
  show (cfg1.win 2).cut (grid1.coords t) ((dat1 (F := Ideal) V c).after 2 t) = _
  rw [after1_2]
  unfold out1_2
  rw [View.canon_unit_zero zeros]
  simp only [View.ld_unit_zero (S := S6000x64) zeros, View.ld_unit_zero (S := S64x64) zeros]
  rw [pay1_eq]
  obtain ⟨e00, e01, e10, e11, e20, e21⟩ := index_facts t
  funext j
  show blockProduct (iblk1 V c 0 t) (iblk1 V c 1 t) j = product V c (((cfg1.win 2).blk t).view.emb j)
  unfold product
  refine block_eq_whole _ _ _ _ _ _ (fun k => ?_) (fun k => ?_)
  · -- the block's row is the array's row 6000·t + (row of j)
    show V c main_v51 (((cfg1.win 0).blk t).view.emb (browAt j k)) = V c main_v51 (rowAt (((cfg1.win 2).blk t).view.emb j) k)
    refine congrArg (V c main_v51) (funext fun a => Fin.ext ?_)
    match a with
    | ⟨0, _⟩ => show win1_0.index t (0 : Fin 2) * 6000 + 1 * (j 0).val = win1_2.index t (0 : Fin 2) * 6000 + 1 * (j 0).val; omega
    | ⟨1, _⟩ => show win1_0.index t (1 : Fin 2) * 64 + 1 * k.val = k.val; omega
  · -- the weights' block is the whole matrix
    show V c main_v53 (((cfg1.win 1).blk t).view.emb (bcolAt j k)) = V c main_v53 (colAt (((cfg1.win 2).blk t).view.emb j) k)
    refine congrArg (V c main_v53) (funext fun a => Fin.ext ?_)
    match a with
    | ⟨0, _⟩ => show win1_1.index t (0 : Fin 2) * 64 + 1 * k.val = k.val; omega
    | ⟨1, _⟩ => show win1_1.index t (1 : Fin 2) * 64 + 1 * (j 1).val = win1_2.index t (1 : Fin 2) * 64 + 1 * (j 1).val; omega

/-- An entry of the result array is in point t's block iff each coordinate is in the block's range on its axis. -/
theorem mem_blk (t : Fin cfg1.N) (i : S150000x64.Idx) :
    i ∈ ((cfg1.win 2).blk t).view.set ↔ ∀ a : Fin 2, win1_2.index t a * S6000x64.size a ≤ (i a).val ∧ (i a).val < win1_2.index t a * S6000x64.size a + S6000x64.size a := by
  show i ∈ ((View.whole main_v54).slice (win1_2.rect t)).set ↔ _
  rw [View.set_slice_whole, Rect.mem_set_unit]
  exact Iff.rfl

/-- THE COVER: row r of the result array lies in the block of point r / 6000, which is written back. -/
theorem cover (i : S150000x64.Idx) : ∃ t : Fin cfg1.N, (cfg1.win 2).flush t = true ∧ i ∈ ((cfg1.win 2).blk t).view.set := by
  have hN : grid1.N = 25 := N_1
  have hi0 : (i 0).val < 150000 := (i 0).isLt
  have hi1 : (i 1).val < 64 := (i 1).isLt
  have ht : (i 0).val / 6000 < grid1.N := by omega
  refine ⟨⟨(i 0).val / 6000, ht⟩, flush1_2 _, ?_⟩
  rw [mem_blk]
  obtain ⟨-, -, -, -, e20, e21⟩ := index_facts ⟨(i 0).val / 6000, ht⟩
  intro a
  match a with
  | ⟨0, _⟩ =>
    show win1_2.index ⟨(i 0).val / 6000, ht⟩ (0 : Fin 2) * 6000 ≤ (i 0).val ∧ (i 0).val < win1_2.index ⟨(i 0).val / 6000, ht⟩ (0 : Fin 2) * 6000 + 6000
    rw [e20]; show (i 0).val / 6000 * 6000 ≤ (i 0).val ∧ (i 0).val < (i 0).val / 6000 * 6000 + 6000; omega
  | ⟨1, _⟩ =>
    show win1_2.index ⟨(i 0).val / 6000, ht⟩ (1 : Fin 2) * 64 ≤ (i 1).val ∧ (i 1).val < win1_2.index ⟨(i 0).val / 6000, ht⟩ (1 : Fin 2) * 64 + 64
    rw [e21]; omega

/-- THE RESULT ARRAY after the launch is the whole product of the operand arrays as the launch found them. -/
theorem result_eq (c : Dev nD) : (dat1 (F := Ideal) V c).arrAt 2 cfg1.N = product V c :=
  (dat1 (F := Ideal) V c).arrAt_eq_of_cover 2 (product V c) (fun t _ => flushed_eq V c t) (cover)

end Cert.KernelIdeal.Launch1

end
-- ==== Proof.Walk2.lean ====
/-
  The walk, part 3: launch 1 and the stretch of host operations after it.

  The launch replaces its result array by the product of its two operand arrays (Proof/Launch1.lean) and leaves
  every other buffer as it was. Its operands hold, by the previous part, the reference's stages; so the result array
  holds the reference's `dot_general` of those stages — which is the reference's next stage by definition. The
  stretch after it (gather the transformed features along the edges' sources, scale by the edge weights,
  scatter-add into the targets, add the layer's bias, slice out the next weight matrix) is again host operations
  only, read off as in part 1 with the operands' contents replaced by the stages they hold.
-/
import proofs.«116416_j19000935317532_1_alg».proof.Proof.Walk1
import proofs.«116416_j19000935317532_1_alg».proof.Proof.Launch1

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After launch 1 (`Gen.W6`) -/

/-- The second layer's linear transform. -/
theorem W6_v54 : W6 m ρ c (Proc.devRef .tc main_v54) = Cert.ReferenceIdeal.ReadP.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ((Cert.KernelIdeal.Launch1.result_eq (V5 m ρ) c).trans ?_)
  unfold Cert.KernelIdeal.Launch1.product
  show Host.dotGeneral (F := Ideal) (φ₁ := .f32) (φ₂ := .f32) Cert.ReferenceIdeal.dot_S150000x64_S64x64_S150000x64_1_0_0_1_n_n none
    (W5 m ρ c (Proc.devRef .tc main_v51)) (W5 m ρ c (Proc.devRef .tc main_v53)) = _
  rw [W5_v51, W5_v53]
  rfl
theorem W6_v4 : W6 m ρ c (Proc.devRef .tc main_v4) = Cert.ReferenceIdeal.ReadP.val_main_v4 (F := Ideal) (m ((c : Thread nD τ).loc main_arg0)) :=
  (W6_of_ne m ρ c main_v4 (by decide)).trans (W5_v4 m ρ c)
theorem W6_v7 : W6 m ρ c (Proc.devRef .tc main_v7) = Cert.ReferenceIdeal.ReadP.val_main_v7 (F := Ideal) (m ((c : Thread nD τ).loc main_arg0)) :=
  (W6_of_ne m ρ c main_v7 (by decide)).trans (W5_v7 m ρ c)
theorem W6_v30 : W6 m ρ c (Proc.devRef .tc main_v30) = Cert.ReferenceIdeal.ReadP.val_main_v30 (F := Ideal) (m ((c : Thread nD τ).loc main_arg0)) :=
  (W6_of_ne m ρ c main_v30 (by decide)).trans (W5_v30 m ρ c)
theorem W6_arg3 : W6 m ρ c (Proc.devRef .tc main_arg3) = (m ((c : Thread nD τ).loc main_arg3)) :=
  (W6_of_ne m ρ c main_arg3 (by decide)).trans (W5_arg3 m ρ c)
theorem W6_arg4 : W6 m ρ c (Proc.devRef .tc main_arg4) = (m ((c : Thread nD τ).loc main_arg4)) :=
  (W6_of_ne m ρ c main_arg4 (by decide)).trans (W5_arg4 m ρ c)

/-! ## At the next launch's entry (`Gen.W7`) -/

set_option maxHeartbeats 2000000 in
/-- The second layer's output. -/
theorem W7_v72 : W7 m ρ c (Proc.devRef .tc main_v72) = Cert.ReferenceIdeal.ReadP.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h_v54 := W6_v54 m ρ c
  have h_v4 := W6_v4 m ρ c
  have h_v7 := W6_v7 m ρ c
  have h_v30 := W6_v30 m ρ c
  have h_arg4 := W6_arg4 m ρ c
  show StableHlo.after hostOps2 (W6 m ρ c) (Proc.devRef .tc main_v72) = _
  generalize W6 m ρ c = V at h_v54 h_v4 h_v7 h_v30 h_arg4 ⊢
  read_stretch <;> (try simp only [h_v54, h_v4, h_v7, h_v30, h_arg4]) <;> rfl
/-- The third layer's weight matrix. -/
theorem W7_v74 : W7 m ρ c (Proc.devRef .tc main_v74) = Cert.ReferenceIdeal.ReadP.val_main_v74 (F := Ideal) (m ((c : Thread nD τ).loc main_arg3)) := by
  have h_arg3 := W6_arg3 m ρ c
  show StableHlo.after hostOps2 (W6 m ρ c) (Proc.devRef .tc main_v74) = _
  generalize W6 m ρ c = V at h_arg3 ⊢
  read_stretch <;> (try simp only [h_arg3]) <;> rfl
theorem W7_v4 : W7 m ρ c (Proc.devRef .tc main_v4) = Cert.ReferenceIdeal.ReadP.val_main_v4 (F := Ideal) (m ((c : Thread nD τ).loc main_arg0)) := by
  have h_v4 := W6_v4 m ρ c
  show StableHlo.after hostOps2 (W6 m ρ c) (Proc.devRef .tc main_v4) = _
  generalize W6 m ρ c = V at h_v4 ⊢
  read_stretch <;> (try simp only [h_v4]) <;> rfl
theorem W7_v7 : W7 m ρ c (Proc.devRef .tc main_v7) = Cert.ReferenceIdeal.ReadP.val_main_v7 (F := Ideal) (m ((c : Thread nD τ).loc main_arg0)) := by
  have h_v7 := W6_v7 m ρ c
  show StableHlo.after hostOps2 (W6 m ρ c) (Proc.devRef .tc main_v7) = _
  generalize W6 m ρ c = V at h_v7 ⊢
  read_stretch <;> (try simp only [h_v7]) <;> rfl
theorem W7_v30 : W7 m ρ c (Proc.devRef .tc main_v30) = Cert.ReferenceIdeal.ReadP.val_main_v30 (F := Ideal) (m ((c : Thread nD τ).loc main_arg0)) := by
  have h_v30 := W6_v30 m ρ c
  show StableHlo.after hostOps2 (W6 m ρ c) (Proc.devRef .tc main_v30) = _
  generalize W6 m ρ c = V at h_v30 ⊢
  read_stretch <;> (try simp only [h_v30]) <;> rfl
theorem W7_arg4 : W7 m ρ c (Proc.devRef .tc main_arg4) = (m ((c : Thread nD τ).loc main_arg4)) := by
  have h_arg4 := W6_arg4 m ρ c
  show StableHlo.after hostOps2 (W6 m ρ c) (Proc.devRef .tc main_arg4) = _
  generalize W6 m ρ c = V at h_arg4 ⊢
  read_stretch <;> (try simp only [h_arg4]) <;> rfl

end Cert.KernelIdeal.Walk

end
-- ==== Proof.Launch2.lean ====
/-
  Launch 2 of the kernel leaves, in its result array, the product of its two operand arrays.

  The launch walks a grid of 25 points. At point t it fetches rows 6000·t … 6000·t + 5999 of the [150000, 64]
  operand (a [6000, 64] block) and the whole [64, 64] weight matrix, multiplies them in the body, and writes the
  [6000, 64] result back as rows 6000·t … 6000·t + 5999 of the result array. Row r of the result therefore comes from
  point r / 6000, and entry (r, c) is the sum over k of operand (r, k) times weight (k, c): entry (r, c) of the whole
  product. The 25 blocks tile the 150000 rows, so the result array IS the whole product — whatever the operand arrays
  hold when the launch is entered (`V`).
-/
import proofs.«116416_j19000935317532_1_alg».proof.Proof.Gen.KernelIdeal.Frame
import proofs.«116416_j19000935317532_1_alg».proof.Proof.MatProduct

set_option maxRecDepth 16384

noncomputable section

namespace Cert.KernelIdeal.Launch2

open Cert.KernelIdeal Cert.KernelIdeal.Gen Cert.MatProduct
open Idealize.ShloMosaic Idealize.ShloMosaic.TcCoe Idealize.SL.Sem
open Idealize.ShloMosaic.Pipeline (Dat)

-- the buffer contents when the launch is entered
variable (V : (c : Dev nD) → (b : Ref sig .tc) → Buf (Elt Ideal) ((c : Thread nD τ).loc b))

theorem zeros : (![0, 0] : Fin 2 → Nat) = fun _ => 0 := funext fun a => by fin_cases a <;> rfl

/-- The whole product of the operand arrays as the launch finds them. -/
def product (c : Dev nD) : Buf (Elt Ideal) ((c : Thread nD τ).loc main_v75) :=
  Host.dotGeneral (F := Ideal) (φ₁ := .f32) (φ₂ := .f32) Cert.ReferenceIdeal.dot_S150000x64_S64x64_S150000x64_1_0_0_1_n_n none (V c main_v72) (V c main_v74)

/-- The printed index maps, decided once over the 25 grid points: the operand's and the result's blocks are block t
    along the rows and the only block along the columns; the weights' block is always the only one. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the whole product. -/
theorem flushed_eq (c : Dev nD) (t : Fin cfg2.N) :
    (dat2 (F := Ideal) V c).flushed 2 t = ((cfg2.win 2).blk t).view.read (Elt Ideal) (product V c) := by
  show (cfg2.win 2).cut (grid2.coords t) ((dat2 (F := Ideal) V c).after 2 t) = _
  rw [after2_2]
  unfold out2_2
  rw [View.canon_unit_zero zeros]
  simp only [View.ld_unit_zero (S := S6000x64) zeros, View.ld_unit_zero (S := S64x64) zeros]
  rw [pay2_eq]
  obtain ⟨e00, e01, e10, e11, e20, e21⟩ := index_facts t
  funext j
  show blockProduct (iblk2 V c 0 t) (iblk2 V c 1 t) j = product V c (((cfg2.win 2).blk t).view.emb j)
  unfold product
  refine block_eq_whole _ _ _ _ _ _ (fun k => ?_) (fun k => ?_)
  · -- the block's row is the array's row 6000·t + (row of j)
    show V c main_v72 (((cfg2.win 0).blk t).view.emb (browAt j k)) = V c main_v72 (rowAt (((cfg2.win 2).blk t).view.emb j) k)
    refine congrArg (V c main_v72) (funext fun a => Fin.ext ?_)
    match a with
    | ⟨0, _⟩ => show win2_0.index t (0 : Fin 2) * 6000 + 1 * (j 0).val = win2_2.index t (0 : Fin 2) * 6000 + 1 * (j 0).val; omega
    | ⟨1, _⟩ => show win2_0.index t (1 : Fin 2) * 64 + 1 * k.val = k.val; omega
  · -- the weights' block is the whole matrix
    show V c main_v74 (((cfg2.win 1).blk t).view.emb (bcolAt j k)) = V c main_v74 (colAt (((cfg2.win 2).blk t).view.emb j) k)
    refine congrArg (V c main_v74) (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega

/-- An entry of the result array is in point t's block iff each coordinate is in the block's range on its axis. -/
theorem mem_blk (t : Fin cfg2.N) (i : S150000x64.Idx) :
    i ∈ ((cfg2.win 2).blk t).view.set ↔ ∀ a : Fin 2, win2_2.index t a * S6000x64.size a ≤ (i a).val ∧ (i a).val < win2_2.index t a * S6000x64.size a + S6000x64.size a := by
  show i ∈ ((View.whole main_v75).slice (win2_2.rect t)).set ↔ _
  rw [View.set_slice_whole, Rect.mem_set_unit]
  exact Iff.rfl

/-- THE COVER: row r of the result array lies in the block of point r / 6000, which is written back. -/
theorem cover (i : S150000x64.Idx) : ∃ t : Fin cfg2.N, (cfg2.win 2).flush t = true ∧ i ∈ ((cfg2.win 2).blk t).view.set := by
  have hN : grid2.N = 25 := N_2
  have hi0 : (i 0).val < 150000 := (i 0).isLt
  have hi1 : (i 1).val < 64 := (i 1).isLt
  have ht : (i 0).val / 6000 < grid2.N := by omega
  refine ⟨⟨(i 0).val / 6000, ht⟩, flush2_2 _, ?_⟩
  rw [mem_blk]
  obtain ⟨-, -, -, -, e20, e21⟩ := index_facts ⟨(i 0).val / 6000, ht⟩
  intro a
  match a with
  | ⟨0, _⟩ =>
    show win2_2.index ⟨(i 0).val / 6000, ht⟩ (0 : Fin 2) * 6000 ≤ (i 0).val ∧ (i 0).val < win2_2.index ⟨(i 0).val / 6000, ht⟩ (0 : Fin 2) * 6000 + 6000
    rw [e20]; show (i 0).val / 6000 * 6000 ≤ (i 0).val ∧ (i 0).val < (i 0).val / 6000 * 6000 + 6000; omega
  | ⟨1, _⟩ =>
    show win2_2.index ⟨(i 0).val / 6000, ht⟩ (1 : Fin 2) * 64 ≤ (i 1).val ∧ (i 1).val < win2_2.index ⟨(i 0).val / 6000, ht⟩ (1 : Fin 2) * 64 + 64
    rw [e21]; omega

/-- THE RESULT ARRAY after the launch is the whole product of the operand arrays as the launch found them. -/
theorem result_eq (c : Dev nD) : (dat2 (F := Ideal) V c).arrAt 2 cfg2.N = product V c :=
  (dat2 (F := Ideal) V c).arrAt_eq_of_cover 2 (product V c) (fun t _ => flushed_eq V c t) (cover)

end Cert.KernelIdeal.Launch2

end
-- ==== Proof.Walk3.lean ====
/-
  The walk, part 4: the third launch and the last stretch, down to the two result arrays.

  As in parts 2 and 3 for the launch. The last stretch computes the third layer's output and slices it into the
  users' rows and the items' rows: the two arrays @main returns. They hold the reference's last two stages, taken at
  the kernel's own arguments.
-/
import proofs.«116416_j19000935317532_1_alg».proof.Proof.Walk2
import proofs.«116416_j19000935317532_1_alg».proof.Proof.Launch2

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the third launch (`Gen.W8`) -/

/-- The third layer's linear transform. -/
theorem W8_v75 : W8 m ρ c (Proc.devRef .tc main_v75) = Cert.ReferenceIdeal.ReadP.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m ρ c 2).trans ((Cert.KernelIdeal.Launch2.result_eq (V7 m ρ) c).trans ?_)
  unfold Cert.KernelIdeal.Launch2.product
  show Host.dotGeneral (F := Ideal) (φ₁ := .f32) (φ₂ := .f32) Cert.ReferenceIdeal.dot_S150000x64_S64x64_S150000x64_1_0_0_1_n_n none
    (W7 m ρ c (Proc.devRef .tc main_v72)) (W7 m ρ c (Proc.devRef .tc main_v74)) = _
  rw [W7_v72, W7_v74]
  rfl
theorem W8_v4 : W8 m ρ c (Proc.devRef .tc main_v4) = Cert.ReferenceIdeal.ReadP.val_main_v4 (F := Ideal) (m ((c : Thread nD τ).loc main_arg0)) :=
  (W8_of_ne m ρ c main_v4 (by decide)).trans (W7_v4 m ρ c)
theorem W8_v7 : W8 m ρ c (Proc.devRef .tc main_v7) = Cert.ReferenceIdeal.ReadP.val_main_v7 (F := Ideal) (m ((c : Thread nD τ).loc main_arg0)) :=
  (W8_of_ne m ρ c main_v7 (by decide)).trans (W7_v7 m ρ c)
theorem W8_v30 : W8 m ρ c (Proc.devRef .tc main_v30) = Cert.ReferenceIdeal.ReadP.val_main_v30 (F := Ideal) (m ((c : Thread nD τ).loc main_arg0)) :=
  (W8_of_ne m ρ c main_v30 (by decide)).trans (W7_v30 m ρ c)
theorem W8_arg4 : W8 m ρ c (Proc.devRef .tc main_arg4) = (m ((c : Thread nD τ).loc main_arg4)) :=
  (W8_of_ne m ρ c main_arg4 (by decide)).trans (W7_arg4 m ρ c)

/-! ## At the return (`Gen.W9`) -/

set_option maxHeartbeats 2000000 in
/-- The users' rows of the third layer's output: the first result. -/
theorem W9_v94 : W9 m ρ c (Proc.devRef .tc main_v94) = Cert.ReferenceIdeal.ReadP.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h_v75 := W8_v75 m ρ c
  have h_v4 := W8_v4 m ρ c
  have h_v7 := W8_v7 m ρ c
  have h_v30 := W8_v30 m ρ c
  have h_arg4 := W8_arg4 m ρ c
  show StableHlo.after hostOps3 (W8 m ρ c) (Proc.devRef .tc main_v94) = _
  generalize W8 m ρ c = V at h_v75 h_v4 h_v7 h_v30 h_arg4 ⊢
  read_stretch <;> (try simp only [h_v75, h_v4, h_v7, h_v30, h_arg4]) <;> rfl
set_option maxHeartbeats 2000000 in
/-- The items' rows of the third layer's output: the third result. -/
theorem W9_v95 : W9 m ρ c (Proc.devRef .tc main_v95) = Cert.ReferenceIdeal.ReadP.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h_v75 := W8_v75 m ρ c
  have h_v4 := W8_v4 m ρ c
  have h_v7 := W8_v7 m ρ c
  have h_v30 := W8_v30 m ρ c
  have h_arg4 := W8_arg4 m ρ c
  show StableHlo.after hostOps3 (W8 m ρ c) (Proc.devRef .tc main_v95) = _
  generalize W8 m ρ c = V at h_v75 h_v4 h_v7 h_v30 h_arg4 ⊢
  read_stretch <;> (try simp only [h_v75, h_v4, h_v7, h_v30, h_arg4]) <;> rfl

end Cert.KernelIdeal.Walk

end
-- ==== Proof.lean ====
/-
  A three-layer graph convolution, its linear transforms run as Pallas matmul launches, against the same network
  with plain matrix products: the two are equal at the ideal values.

  THE TWO PROGRAMS. Both take an edge list, user and item embeddings, three [64, 64] weight matrices and three
  biases. Both concatenate the embeddings into the [150000, 64] node features x, append a self-loop per node to the
  edge list, count each node's in-degree by a scatter-add of ones, take dinv = 1/sqrt(deg) where deg > 0 and 0
  elsewhere, and weight edge (s, t) by norm = dinv[s] · dinv[t]. Then, three times: h = x · W_l; gather h along the
  edges' sources, scale by norm, scatter-add into the edges' targets, add the bias b_l; that is the next x. They
  return the users' rows and the items' rows of the last x, beside the two embedding arrays unchanged. Printed, the
  two @mains are the same 116 lines except for the three lines computing h: the reference's is a host `dot_general`
  of the whole arrays; the kernel's is a launch that walks 25 blocks of 6000 rows, casts block and weights to bf16,
  multiplies them into a zero accumulator on the matrix unit and writes the block of h back.

  WHY THEY AGREE. At the ideal values a change of float format is the identity and a product entry is the exact sum
  ∑ k, x (r, k) · w (k, c) on the extended reals, whether it is computed for all 150000 rows at once or for the 6000
  rows of a block; the blocks tile the rows; so each launch leaves in h exactly the whole product of the arrays it
  was given (Proof/MatProduct.lean, Proof/Launch0.lean … Launch2.lean). Everything else is the same host operations
  applied to equal operands. Only commutativity and associativity of the extended reals' addition is implicit in
  "the exact sum" — no distributivity or cancellation, so nothing here needs the inputs to be finite, and the
  precondition is never opened. (Out-of-range edge indices are whatever the host's gather and scatter make of them,
  the same on both sides.)

  HOW IT IS PUT TOGETHER. The kernel's run is nine segments; the generated frame certificate follows the buffers'
  contents through them, and Proof/KernelRun.lean keeps its final reading whole: every buffer ends at `Gen.W9`. The
  walk (Proof/Walk0.lean … Walk3.lean) then shows, boundary by boundary, that the buffers still needed hold the
  reference's stages (`val_main_vN`, the reference read one operation at a time) taken at the kernel's arguments —
  host stretches by reading the same operations, launches by the product lemma. The reference's own run ends with
  its results at the last stages of ITS arguments, which agree with the kernel's.

  The three frames: the kernel's two are generated; the reference has no launch, and its frame is its run with the
  results dropped. `preserves` has no conjunct: the idealization rewrote nothing.
-/
import proofs.«116416_j19000935317532_1_alg».proof.Defs
import proofs.«116416_j19000935317532_1_alg».proof.Proof.Gen.Kernel
import proofs.«116416_j19000935317532_1_alg».proof.Proof.Gen.Kernel.Skeleton
import proofs.«116416_j19000935317532_1_alg».proof.Proof.Gen.Kernel.Launch
import proofs.«116416_j19000935317532_1_alg».proof.Proof.Gen.Kernel.Points
import proofs.«116416_j19000935317532_1_alg».proof.Proof.Gen.Kernel.Frame
import proofs.«116416_j19000935317532_1_alg».proof.Proof.Gen.KernelIdeal
import proofs.«116416_j19000935317532_1_alg».proof.Proof.Gen.KernelIdeal.Skeleton
import proofs.«116416_j19000935317532_1_alg».proof.Proof.Gen.KernelIdeal.Launch
import proofs.«116416_j19000935317532_1_alg».proof.Proof.Gen.KernelIdeal.Points
import proofs.«116416_j19000935317532_1_alg».proof.Proof.Gen.KernelIdeal.Frame
import proofs.«116416_j19000935317532_1_alg».proof.Proof.Gen.ReferenceIdeal
import proofs.«116416_j19000935317532_1_alg».proof.Proof.Gen.Pre_finite_inputs
import proofs.«116416_j19000935317532_1_alg».proof.Proof.RefRun
import proofs.«116416_j19000935317532_1_alg».proof.Proof.RefRead
import proofs.«116416_j19000935317532_1_alg».proof.Proof.KernelRun
import proofs.«116416_j19000935317532_1_alg».proof.Proof.Walk3
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is host operations only: its run ends with the arguments as launched (the last five facts of its post). -/
theorem frame_referenceIdeal : Cert.frame_ReferenceIdeal := fun m ρ _ =>
  (θ_run Cert.ReferenceIdeal.defs _ _).mono (fun _ h c => (h c).2.2.2.2) (Cert.ReferenceIdeal.ValueP.run (F := Ideal) m ρ)

/-- The idealization rewrote no operation. -/
theorem preserves : Cert.preserves_Kernel_KernelIdeal := trivial

/-- Both programs end with the users' rows and the items' rows of the third layer's output — the reference's last two
    stages — at the kernel's arguments, and with the embedding arrays as launched. -/
theorem algebraic : Cert.algebraic_KernelIdeal_ReferenceIdeal := by
  intro m ρ m' ρ' _ hagree
  refine ⟨fun c => Cert.ReferenceIdeal.ReadP.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => (m ((c.tc : Thread Cert.KernelIdeal.nD Cert.KernelIdeal.τ).loc Cert.KernelIdeal.main_arg1)),
    fun c => Cert.ReferenceIdeal.ReadP.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => (m ((c.tc : Thread Cert.KernelIdeal.nD Cert.KernelIdeal.τ).loc Cert.KernelIdeal.main_arg2)), ?_, ?_⟩
  · -- the kernel: every buffer ends at the fold's last valuation, which the walk has read at the results
    refine (θ_run Cert.KernelIdeal.defs _ _).mono (fun r h c => ?_) (Cert.KernelIdeal.Whole.run_all (F := Ideal) m ρ)
    exact ⟨(Cert.KernelIdeal.Whole.at_ref m ρ h c Cert.KernelIdeal.main_v94 (by decide)).trans (Cert.KernelIdeal.Walk.W9_v94 m ρ c),
      (Cert.KernelIdeal.Whole.at_ref m ρ h c Cert.KernelIdeal.main_arg1 (by decide)).trans (Cert.KernelIdeal.Gen.W9_main_arg1 m ρ c),
      (Cert.KernelIdeal.Whole.at_ref m ρ h c Cert.KernelIdeal.main_v95 (by decide)).trans (Cert.KernelIdeal.Walk.W9_v95 m ρ c),
      (Cert.KernelIdeal.Whole.at_ref m ρ h c Cert.KernelIdeal.main_arg2 (by decide)).trans (Cert.KernelIdeal.Gen.W9_main_arg2 m ρ c),
      (Cert.KernelIdeal.Whole.at_ref m ρ h c Cert.KernelIdeal.main_arg0 (by decide)).trans (Cert.KernelIdeal.Gen.W9_main_arg0 m ρ c),
      (Cert.KernelIdeal.Whole.at_ref m ρ h c Cert.KernelIdeal.main_arg1 (by decide)).trans (Cert.KernelIdeal.Gen.W9_main_arg1 m ρ c),
      (Cert.KernelIdeal.Whole.at_ref m ρ h c Cert.KernelIdeal.main_arg2 (by decide)).trans (Cert.KernelIdeal.Gen.W9_main_arg2 m ρ c),
      (Cert.KernelIdeal.Whole.at_ref m ρ h c Cert.KernelIdeal.main_arg3 (by decide)).trans (Cert.KernelIdeal.Gen.W9_main_arg3 m ρ c),
      (Cert.KernelIdeal.Whole.at_ref m ρ h c Cert.KernelIdeal.main_arg4 (by decide)).trans (Cert.KernelIdeal.Gen.W9_main_arg4 m ρ c)⟩
  · -- the reference: its results are its last two stages at ITS arguments, which are the kernel's
    refine (θ_run Cert.ReferenceIdeal.defs _ _).mono (fun r h c => ?_) (Cert.ReferenceIdeal.ValueP.run (F := Ideal) m' ρ')
    obtain ⟨h94, h1, h95, h2, k0, k1, k2, k3, k4⟩ := h c
    obtain ⟨e0, e1, e2, e3, e4⟩ := hagree c
    refine ⟨?_, h1.trans e1, ?_, h2.trans e2, k0, k1, k2, k3, k4⟩
    · rw [h94, Cert.ReferenceIdeal.ReadP.val_main_v94_eq, e0, e1, e2, e3, e4]
    · rw [h95, Cert.ReferenceIdeal.ReadP.val_main_v95_eq, e0, e1, e2, e3, e4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
